-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S3x8 : Shape := ⟨2, ![3, 8]⟩
abbrev S3 : Shape := ⟨1, ![3]⟩
abbrev S3x3 : Shape := ⟨2, ![3, 3]⟩
abbrev S5x3 : Shape := ⟨2, ![5, 3]⟩
abbrev S5 : Shape := ⟨1, ![5]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S3x8 : S_.BroadcastsInDim S3x8 (![] : Fin 0 → Fin S3x8.rank)
  reducesTo_S3x8_S_d0_1 : S3x8.ReducesTo [0, 1] S_
  bcast_S_S3 : S_.BroadcastsInDim S3 (![] : Fin 0 → Fin S3.rank)
  reducesTo_S3_S_d0 : S3.ReducesTo [0] S_
  bcast_S_S3x3 : S_.BroadcastsInDim S3x3 (![] : Fin 0 → Fin S3x3.rank)
  reducesTo_S3x3_S_d0_1 : S3x3.ReducesTo [0, 1] S_
  bcast_S_S5x3 : S_.BroadcastsInDim S5x3 (![] : Fin 0 → Fin S5x3.rank)
  reducesTo_S5x3_S_d0_1 : S5x3.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S3 .f32) (main_arg5 : FVec F S5x3 .f32) (main_arg6 : FVec F S5 .f32) (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S5x3 .f32 := Host.absf main_arg5
  let main_cst_8 : FVec F S_ .f32 := constant S_ .f32 0x7F800000#32
  let main_v25 : FVec F S5x3 .f32 := broadcastInDim S5x3 ![] bcast_S_S5x3 main_cst_8
  let main_v26 : IVec S5x3 1 := cmpf .olt main_v24 main_v25
  let main_c_9 : IVec S_ 1 := constantI S_ 1 1#1
  let main_v27 : IVec S_ 1 := (fun x v => Host.reduce IntOp.andi x v reducesTo_S5x3_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S4194304x8 .f32) (main_arg1 : FVec F S3x8 .f32) (main_arg2 : FVec F S3 .f32) (main_arg3 : FVec F S3x3 .f32) (main_arg4 : FVec F S3 .f32) (main_arg5 : FVec F S5x3 .f32) (main_arg6 : FVec F S5 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S3x8 .f32 := Host.absf main_arg1
  let main_cst_0 : FVec F S_ .f32 := constant S_ .f32 0x7F800000#32
  let main_v5 : FVec F S3x8 .f32 := broadcastInDim S3x8 ![] bcast_S_S3x8 main_cst_0
  let main_v6 : IVec S3x8 1 := cmpf .olt main_v4 main_v5
  let main_c_1 : IVec S_ 1 := constantI S_ 1 1#1
  let main_v7 : IVec S_ 1 := (fun x v => Host.reduce IntOp.andi x v reducesTo_S3x8_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x3 .f32 := Host.absf main_arg3
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_arg4 main_arg5 main_arg6 main_v13 main_v16
-- ==== Kernel.lean ====
abbrev S4194304x8 : Shape := ⟨2, ![4194304, 8]⟩
abbrev S3x8 : Shape := ⟨2, ![3, 8]⟩
abbrev S3 : Shape := ⟨1, ![3]⟩
abbrev S3x3 : Shape := ⟨2, ![3, 3]⟩
abbrev S5x3 : Shape := ⟨2, ![5, 3]⟩
abbrev S5 : Shape := ⟨1, ![5]⟩
abbrev S1x3 : Shape := ⟨2, ![1, 3]⟩
abbrev S1x5 : Shape := ⟨2, ![1, 5]⟩
abbrev S4194304x1 : Shape := ⟨2, ![4194304, 1]⟩
abbrev S65536x8 : Shape := ⟨2, ![65536, 8]⟩
abbrev S65536x1 : Shape := ⟨2, ![65536, 1]⟩
abbrev S8x3 : Shape := ⟨2, ![8, 3]⟩
abbrev S65536x3 : Shape := ⟨2, ![65536, 3]⟩
abbrev S3x5 : Shape := ⟨2, ![3, 5]⟩
abbrev S65536x5 : Shape := ⟨2, ![65536, 5]⟩

abbrev nBuf : Space → Nat
  | .hbm => 15
  | .vmem => 18
  | .smem => 0
  | _ => 0

abbrev bufTy : (tb : Table) → Fin (tcTables nBuf tb) → BufTy
  | .hbm, ⟨0, _⟩ => ⟨S4194304x8, .f32⟩
  | .hbm, ⟨1, _⟩ => ⟨S3x8, .f32⟩
  | .hbm, ⟨2, _⟩ => ⟨S3, .f32⟩
  | .hbm, ⟨3, _⟩ => ⟨S3x3, .f32⟩
  | .hbm, ⟨4, _⟩ => ⟨S3, .f32⟩
  | .hbm, ⟨5, _⟩ => ⟨S5x3, .f32⟩
  | .hbm, ⟨6, _⟩ => ⟨S5, .f32⟩
  | .hbm, ⟨7, _⟩ => ⟨S1x3, .f32⟩
  | .hbm, ⟨8, _⟩ => ⟨S1x3, .f32⟩
  | .hbm, ⟨9, _⟩ => ⟨S1x5, .f32⟩
  | .hbm, ⟨10, _⟩ => ⟨S4194304x1, .f32⟩
  | .hbm, ⟨11, _⟩ => ⟨S4194304x1, .f32⟩
  | .hbm, ⟨12, _⟩ => ⟨S4194304x1, .f32⟩
  | .hbm, ⟨13, _⟩ => ⟨S4194304x1, .f32⟩
  | .hbm, ⟨14, _⟩ => ⟨S4194304x1, .f32⟩
  | .local _ .vmem, ⟨0, _⟩ => ⟨S65536x8, .f32⟩
  | .local _ .vmem, ⟨1, _⟩ => ⟨S65536x8, .f32⟩
  | .local _ .vmem, ⟨2, _⟩ => ⟨S3x8, .f32⟩
  | .local _ .vmem, ⟨3, _⟩ => ⟨S1x3, .f32⟩
  | .local _ .vmem, ⟨4, _⟩ => ⟨S3x3, .f32⟩
  | .local _ .vmem, ⟨5, _⟩ => ⟨S1x3, .f32⟩
  | .local _ .vmem, ⟨6, _⟩ => ⟨S5x3, .f32⟩
  | .local _ .vmem, ⟨7, _⟩ => ⟨S1x5, .f32⟩
  | .local _ .vmem, ⟨8, _⟩ => ⟨S65536x1, .f32⟩
  | .local _ .vmem, ⟨9, _⟩ => ⟨S65536x1, .f32⟩
  | .local _ .vmem, ⟨10, _⟩ => ⟨S65536x1, .f32⟩
  | .local _ .vmem, ⟨11, _⟩ => ⟨S65536x1, .f32⟩
  | .local _ .vmem, ⟨12, _⟩ => ⟨S65536x1, .f32⟩
  | .local _ .vmem, ⟨13, _⟩ => ⟨S65536x1, .f32⟩
  | .local _ .vmem, ⟨14, _⟩ => ⟨S65536x1, .f32⟩
  | .local _ .vmem, ⟨15, _⟩ => ⟨S65536x1, .f32⟩
  | .local _ .vmem, ⟨16, _⟩ => ⟨S65536x1, .f32⟩
  | .local _ .vmem, ⟨17, _⟩ => ⟨S65536x1, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S65536x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S65536x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S65536x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S65536x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S65536x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S3_S1x3 : S3.ShapeCasts S1x3
  shapeCasts_S5_S1x5 : S5.ShapeCasts S1x5
  inb_S65536x8_S65536x8_0_0 : ∀ a, (![0, 0] : Fin 2 → Nat) a + S65536x8.size a ≤ S65536x8.size a
  h_S65536x8 : 0 < S65536x8.numel
  inb_S3x8_S3x8_0_0 : ∀ a, (![0, 0] : Fin 2 → Nat) a + S3x8.size a ≤ S3x8.size a
  h_S3x8 : 0 < S3x8.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  transposes_S3x8_p1_0_S8x3 : S3x8.Transposes [1, 0] S8x3
  broadcasts_S1x3_S65536x3 : S1x3.Broadcasts S65536x3
  inb_S3x3_S3x3_0_0 : ∀ a, (![0, 0] : Fin 2 → Nat) a + S3x3.size a ≤ S3x3.size a
  h_S3x3 : 0 < S3x3.numel
  transposes_S3x3_p1_0_S3x3 : S3x3.Transposes [1, 0] S3x3
  inb_S5x3_S5x3_0_0 : ∀ a, (![0, 0] : Fin 2 → Nat) a + S5x3.size a ≤ S5x3.size a
  h_S5x3 : 0 < S5x3.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  transposes_S5x3_p1_0_S3x5 : S5x3.Transposes [1, 0] S3x5
  broadcasts_S1x5_S65536x5 : S1x5.Broadcasts S65536x5
  slices_S65536x5_o0_0_S65536x1 : S65536x5.Slices ![0, 0] S65536x1
  inb_S65536x1_S65536x1_0_0 : ∀ a, (![0, 0] : Fin 2 → Nat) a + S65536x1.size a ≤ S65536x1.size a
  h_S65536x1 : 0 < S65536x1.numel
  slices_S65536x5_o0_1_S65536x1 : S65536x5.Slices ![0, 1] S65536x1
  slices_S65536x5_o0_2_S65536x1 : S65536x5.Slices ![0, 2] S65536x1
  slices_S65536x5_o0_3_S65536x1 : S65536x5.Slices ![0, 3] S65536x1
  slices_S65536x5_o0_4_S65536x1 : S65536x5.Slices ![0, 4] S65536x1
  dot_S65536x8_S8x3_S65536x3_1_0_0_1_n_n_wf : DotDims.WF S65536x8 S8x3 S65536x3 [1] [0] [0] [1] [] []
  dot_S65536x3_S3x3_S65536x3_1_0_0_1_n_n_wf : DotDims.WF S65536x3 S3x3 S65536x3 [1] [0] [0] [1] [] []
  dot_S65536x3_S3x5_S65536x5_1_0_0_1_n_n_wf : DotDims.WF S65536x3 S3x5 S65536x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x8.size a ≤ S4194304x8.size a
  hwx0_0 : ∀ i : grid0.Coords, EltTy.bits .f32 = 32 ∨ (Rect.block (s := S4194304x8) S65536x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8.size a ≤ S3x8.size a
  hwx0_1 : ∀ i : grid0.Coords, EltTy.bits .f32 = 32 ∨ (Rect.block (s := S3x8) S3x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x3.size a ≤ S5x3.size a
  hwx0_5 : ∀ i : grid0.Coords, EltTy.bits .f32 = 32 ∨ (Rect.block (s := S5x3) S5x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5.size a ≤ S1x5.size a
  hwx0_6 : ∀ i : grid0.Coords, EltTy.bits .f32 = 32 ∨ (Rect.block (s := S1x5) S1x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S65536x1.size a ≤ S4194304x1.size a
  hwx0_7 : ∀ i : grid0.Coords, EltTy.bits .f32 = 32 ∨ (Rect.block (s := S4194304x1) S65536x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S65536x1.size a ≤ S4194304x1.size a
  hwx0_8 : ∀ i : grid0.Coords, EltTy.bits .f32 = 32 ∨ (Rect.block (s := S4194304x1) S65536x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S65536x1.size a ≤ S4194304x1.size a
  hwx0_9 : ∀ i : grid0.Coords, EltTy.bits .f32 = 32 ∨ (Rect.block (s := S4194304x1) S65536x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S65536x1.size a ≤ S4194304x1.size a
  hwx0_10 : ∀ i : grid0.Coords, EltTy.bits .f32 = 32 ∨ (Rect.block (s := S4194304x1) S65536x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S65536x1.size a ≤ S4194304x1.size a
  hwx0_11 : ∀ i : grid0.Coords, EltTy.bits .f32 = 32 ∨ (Rect.block (s := S4194304x1) S65536x1.size (cc0_transform_11 i) (hinb0_11 i)).WholeWords (EltTy.packing .f32)

variable [Facts₀]

def dot_S65536x8_S8x3_S65536x3_1_0_0_1_n_n : DotDims S65536x8 S8x3 S65536x3 where
  lhsContracting := [1]
  rhsContracting := [0]
  lhsNonContracting := [0]
  rhsNonContracting := [1]
  lhsBatch := []
  rhsBatch := []
  wf := dot_S65536x8_S8x3_S65536x3_1_0_0_1_n_n_wf
def dot_S65536x3_S3x3_S65536x3_1_0_0_1_n_n : DotDims S65536x3 S3x3 S65536x3 where
  lhsContracting := [1]
  rhsContracting := [0]
  lhsNonContracting := [0]
  rhsNonContracting := [1]
  lhsBatch := []
  rhsBatch := []
  wf := dot_S65536x3_S3x3_S65536x3_1_0_0_1_n_n_wf
def dot_S65536x3_S3x5_S65536x5_1_0_0_1_n_n : DotDims S65536x3 S3x5 S65536x5 where
  lhsContracting := [1]
  rhsContracting := [0]
  lhsNonContracting := [0]
  rhsNonContracting := [1]
  lhsBatch := []
  rhsBatch := []
  wf := dot_S65536x3_S3x5_S65536x5_1_0_0_1_n_n_wf

abbrev win0_0 : Pipeline.Window sig grid0 :=
  Pipeline.Window.ofSpec (Memref.whole main_arg0) S65536x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S65536x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S65536x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S65536x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_3) S65536x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_4) S65536x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S3x8 : Shape := ⟨2, ![3, 8]⟩
abbrev S3 : Shape := ⟨1, ![3]⟩
abbrev S3x3 : Shape := ⟨2, ![3, 3]⟩
abbrev S5x3 : Shape := ⟨2, ![5, 3]⟩
abbrev S5 : Shape := ⟨1, ![5]⟩
abbrev S8x3 : Shape := ⟨2, ![8, 3]⟩
abbrev S4194304x3 : Shape := ⟨2, ![4194304, 3]⟩
abbrev S1x3 : Shape := ⟨2, ![1, 3]⟩
abbrev S_ : Shape := ⟨0, ![]⟩
abbrev S3x5 : Shape := ⟨2, ![3, 5]⟩
abbrev S4194304x5 : Shape := ⟨2, ![4194304, 5]⟩
abbrev S1x5 : Shape := ⟨2, ![1, 5]⟩
abbrev S4194304x1 : Shape := ⟨2, ![4194304, 1]⟩

abbrev nBuf : Space → Nat
  | .hbm => 152
  | .vmem => 0
  | .smem => 0
  | _ => 0

abbrev hbmTy0_0 (i : Nat) : BufTy := match i % 128 with
  | 0 => ⟨S4194304x8, .f32⟩
  | 1 => ⟨S3x8, .f32⟩
  | 2 => ⟨S3, .f32⟩
  | 3 => ⟨S3x3, .f32⟩
  | 4 => ⟨S3, .f32⟩
  | 5 => ⟨S5x3, .f32⟩
  | 6 => ⟨S5, .f32⟩
  | 7 => ⟨S8x3, .f32⟩
  | 8 => ⟨S4194304x3, .f32⟩
  | 9 => ⟨S1x3, .f32⟩
  | 10 => ⟨S4194304x3, .f32⟩
  | 11 => ⟨S4194304x3, .f32⟩
  | 12 => ⟨S3x3, .f32⟩
  | 13 => ⟨S4194304x3, .f32⟩
  | 14 => ⟨S1x3, .f32⟩
  | 15 => ⟨S4194304x3, .f32⟩
  | 16 => ⟨S4194304x3, .f32⟩
  | 17 => ⟨S4194304x3, .f32⟩
  | 18 => ⟨S4194304x3, .f32⟩
  | 19 => ⟨S_, .f32⟩
  | 20 => ⟨S4194304x3, .f32⟩
  | 21 => ⟨S4194304x3, .f32⟩
  | 22 => ⟨S_, .f32⟩
  | 23 => ⟨S4194304x3, .f32⟩
  | 24 => ⟨S4194304x3, .f32⟩
  | 25 => ⟨S3x3, .f32⟩
  | 26 => ⟨S4194304x3, .f32⟩
  | 27 => ⟨S1x3, .f32⟩
  | 28 => ⟨S4194304x3, .f32⟩
  | 29 => ⟨S4194304x3, .f32⟩
  | 30 => ⟨S4194304x3, .f32⟩
  | 31 => ⟨S4194304x3, .f32⟩
  | 32 => ⟨S_, .f32⟩
  | 33 => ⟨S4194304x3, .f32⟩
  | 34 => ⟨S4194304x3, .f32⟩
  | 35 => ⟨S_, .f32⟩
  | 36 => ⟨S4194304x3, .f32⟩
  | 37 => ⟨S4194304x3, .f32⟩
  | 38 => ⟨S3x3, .f32⟩
  | 39 => ⟨S4194304x3, .f32⟩
  | 40 => ⟨S1x3, .f32⟩
  | 41 => ⟨S4194304x3, .f32⟩
  | 42 => ⟨S4194304x3, .f32⟩
  | 43 => ⟨S4194304x3, .f32⟩
  | 44 => ⟨S4194304x3, .f32⟩
  | 45 => ⟨S_, .f32⟩
  | 46 => ⟨S4194304x3, .f32⟩
  | 47 => ⟨S4194304x3, .f32⟩
  | 48 => ⟨S_, .f32⟩
  | 49 => ⟨S4194304x3, .f32⟩
  | 50 => ⟨S4194304x3, .f32⟩
  | 51 => ⟨S3x3, .f32⟩
  | 52 => ⟨S4194304x3, .f32⟩
  | 53 => ⟨S1x3, .f32⟩
  | 54 => ⟨S4194304x3, .f32⟩
  | 55 => ⟨S4194304x3, .f32⟩
  | 56 => ⟨S4194304x3, .f32⟩
  | 57 => ⟨S4194304x3, .f32⟩
  | 58 => ⟨S_, .f32⟩
  | 59 => ⟨S4194304x3, .f32⟩
  | 60 => ⟨S4194304x3, .f32⟩
  | 61 => ⟨S_, .f32⟩
  | 62 => ⟨S4194304x3, .f32⟩
  | 63 => ⟨S4194304x3, .f32⟩
  | 64 => ⟨S3x3, .f32⟩
  | 65 => ⟨S4194304x3, .f32⟩
  | 66 => ⟨S1x3, .f32⟩
  | 67 => ⟨S4194304x3, .f32⟩
  | 68 => ⟨S4194304x3, .f32⟩
  | 69 => ⟨S4194304x3, .f32⟩
  | 70 => ⟨S4194304x3, .f32⟩
  | 71 => ⟨S_, .f32⟩
  | 72 => ⟨S4194304x3, .f32⟩
  | 73 => ⟨S4194304x3, .f32⟩
  | 74 => ⟨S_, .f32⟩
  | 75 => ⟨S4194304x3, .f32⟩
  | 76 => ⟨S4194304x3, .f32⟩
  | 77 => ⟨S3x3, .f32⟩
  | 78 => ⟨S4194304x3, .f32⟩
  | 79 => ⟨S1x3, .f32⟩
  | 80 => ⟨S4194304x3, .f32⟩
  | 81 => ⟨S4194304x3, .f32⟩
  | 82 => ⟨S4194304x3, .f32⟩
  | 83 => ⟨S4194304x3, .f32⟩
  | 84 => ⟨S_, .f32⟩
  | 85 => ⟨S4194304x3, .f32⟩
  | 86 => ⟨S4194304x3, .f32⟩
  | 87 => ⟨S_, .f32⟩
  | 88 => ⟨S4194304x3, .f32⟩
  | 89 => ⟨S4194304x3, .f32⟩
  | 90 => ⟨S3x3, .f32⟩
  | 91 => ⟨S4194304x3, .f32⟩
  | 92 => ⟨S1x3, .f32⟩
  | 93 => ⟨S4194304x3, .f32⟩
  | 94 => ⟨S4194304x3, .f32⟩
  | 95 => ⟨S4194304x3, .f32⟩
  | 96 => ⟨S4194304x3, .f32⟩
  | 97 => ⟨S_, .f32⟩
  | 98 => ⟨S4194304x3, .f32⟩
  | 99 => ⟨S4194304x3, .f32⟩
  | 100 => ⟨S_, .f32⟩
  | 101 => ⟨S4194304x3, .f32⟩
  | 102 => ⟨S4194304x3, .f32⟩
  | 103 => ⟨S3x3, .f32⟩
  | 104 => ⟨S4194304x3, .f32⟩
  | 105 => ⟨S1x3, .f32⟩
  | 106 => ⟨S4194304x3, .f32⟩
  | 107 => ⟨S4194304x3, .f32⟩
  | 108 => ⟨S4194304x3, .f32⟩
  | 109 => ⟨S4194304x3, .f32⟩
  | 110 => ⟨S_, .f32⟩
  | 111 => ⟨S4194304x3, .f32⟩
  | 112 => ⟨S4194304x3, .f32⟩
  | 113 => ⟨S_, .f32⟩
  | 114 => ⟨S4194304x3, .f32⟩
  | 115 => ⟨S4194304x3, .f32⟩
  | 116 => ⟨S3x3, .f32⟩
  | 117 => ⟨S4194304x3, .f32⟩
  | 118 => ⟨S1x3, .f32⟩
  | 119 => ⟨S4194304x3, .f32⟩
  | 120 => ⟨S4194304x3, .f32⟩
  | 121 => ⟨S4194304x3, .f32⟩
  | 122 => ⟨S4194304x3, .f32⟩
  | 123 => ⟨S_, .f32⟩
  | 124 => ⟨S4194304x3, .f32⟩
  | 125 => ⟨S4194304x3, .f32⟩
  | 126 => ⟨S_, .f32⟩
  | 127 => ⟨S4194304x3, .f32⟩
  | _ => ⟨S4194304x8, .f32⟩

abbrev hbmTy0_1 (i : Nat) : BufTy := match i % 128 with
  | 0 => ⟨S4194304x3, .f32⟩
  | 1 => ⟨S3x3, .f32⟩
  | 2 => ⟨S4194304x3, .f32⟩
  | 3 => ⟨S1x3, .f32⟩
  | 4 => ⟨S4194304x3, .f32⟩
  | 5 => ⟨S4194304x3, .f32⟩
  | 6 => ⟨S4194304x3, .f32⟩
  | 7 => ⟨S4194304x3, .f32⟩
  | 8 => ⟨S_, .f32⟩
  | 9 => ⟨S4194304x3, .f32⟩
  | 10 => ⟨S4194304x3, .f32⟩
  | 11 => ⟨S_, .f32⟩
  | 12 => ⟨S4194304x3, .f32⟩
  | 13 => ⟨S4194304x3, .f32⟩
  | 14 => ⟨S3x5, .f32⟩
  | 15 => ⟨S4194304x5, .f32⟩
  | 16 => ⟨S1x5, .f32⟩
  | 17 => ⟨S4194304x5, .f32⟩
  | 18 => ⟨S4194304x5, .f32⟩
  | 19 => ⟨S4194304x1, .f32⟩
  | 20 => ⟨S4194304x1, .f32⟩
  | 21 => ⟨S4194304x1, .f32⟩
  | 22 => ⟨S4194304x1, .f32⟩
  | 23 => ⟨S4194304x1, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_15 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_17 : Ref sig .tc := ⟨.hbm, 136, rfl⟩
abbrev main_v111 : Ref sig .tc := ⟨.hbm, 137, rfl⟩
abbrev main_v112 : Ref sig .tc := ⟨.hbm, 138, rfl⟩
abbrev main_cst_18 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩

abbrev nD : Nat := 1
abbrev τ : Topo := Topo.v7x

variable {F : FTy → Type} [FloatOps F]

class Facts₀ : Prop where
  transposes_S3x8_S8x3_1_0 : S3x8.Transposes [1, 0] S8x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  transposes_S3x3_S3x3_1_0 : S3x3.Transposes [1, 0] S3x3
  bcast_S_S4194304x3 : S_.BroadcastsInDim S4194304x3 (![] : Fin 0 → Fin S4194304x3.rank)
  transposes_S5x3_S3x5_1_0 : S5x3.Transposes [1, 0] S3x5
  bcast_S5_S1x5_1 : S5.BroadcastsInDim S1x5 (![1] : Fin 1 → Fin S1x5.rank)
  bcast_S1x5_S4194304x5_0_1 : S1x5.BroadcastsInDim S4194304x5 (![0, 1] : Fin 2 → Fin S4194304x5.rank)
  slices_S4194304x5_S4194304x1_0_0 : S4194304x5.Slices ![0, 0] S4194304x1
  slices_S4194304x5_S4194304x1_0_1 : S4194304x5.Slices ![0, 1] S4194304x1
  slices_S4194304x5_S4194304x1_0_2 : S4194304x5.Slices ![0, 2] S4194304x1
  slices_S4194304x5_S4194304x1_0_3 : S4194304x5.Slices ![0, 3] S4194304x1
  slices_S4194304x5_S4194304x1_0_4 : S4194304x5.Slices ![0, 4] S4194304x1
  dot_S4194304x8_S8x3_S4194304x3_1_0_0_1_n_n_wf : DotDims.WF S4194304x8 S8x3 S4194304x3 [1] [0] [0] [1] [] []
  dot_S4194304x3_S3x3_S4194304x3_1_0_0_1_n_n_wf : DotDims.WF S4194304x3 S3x3 S4194304x3 [1] [0] [0] [1] [] []
  dot_S4194304x3_S3x5_S4194304x5_1_0_0_1_n_n_wf : DotDims.WF S4194304x3 S3x5 S4194304x5 [1] [0] [0] [1] [] []

variable [Facts₀]

def dot_S4194304x8_S8x3_S4194304x3_1_0_0_1_n_n : DotDims S4194304x8 S8x3 S4194304x3 where
  lhsContracting := [1]
  rhsContracting := [0]
  lhsNonContracting := [0]
  rhsNonContracting := [1]
  lhsBatch := []
  rhsBatch := []
  wf := dot_S4194304x8_S8x3_S4194304x3_1_0_0_1_n_n_wf
def dot_S4194304x3_S3x3_S4194304x3_1_0_0_1_n_n : DotDims S4194304x3 S3x3 S4194304x3 where
  lhsContracting := [1]
  rhsContracting := [0]
  lhsNonContracting := [0]
  rhsNonContracting := [1]
  lhsBatch := []
  rhsBatch := []
  wf := dot_S4194304x3_S3x3_S4194304x3_1_0_0_1_n_n_wf
def dot_S4194304x3_S3x5_S4194304x5_1_0_0_1_n_n : DotDims S4194304x3 S3x5 S4194304x5 where
  lhsContracting := [1]
  rhsContracting := [0]
  lhsNonContracting := [0]
  rhsNonContracting := [1]
  lhsBatch := []
  rhsBatch := []
  wf := dot_S4194304x3_S3x5_S4194304x5_1_0_0_1_n_n_wf

class Facts : Prop extends Facts₀ where

variable [Facts]
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.MlpSpec.lean ====
/-
  The network as a function of one input row, on the extended reals.
  A row `x : Fin 8 → EReal` goes through an affine map into three hidden units, then ten times through the SAME
  affine map of the hidden units followed by the logistic function, then through an affine map into five outputs:
    h₀ = W_in · x + b_in,   hₗ₊₁ = σ (W_h · hₗ + b_h)  (ℓ = 0 … 9),   out = W_out · h₁₀ + b_out,
  every matrix applied as `(W · h) c = ∑ k, h k * W c k` (the rows of `W` index the outputs). Result `j` of the
  five result columns holds, at row `r`, the component `out j` computed from row `r` of the input.
  No arithmetic law is needed beyond these definitions: both programs compute this same expression, entry by entry.
-/
import Idealize.ShloMosaic.PureOps.Ideal
import Idealize.ShloMosaic.Lib.ValueIdx

noncomputable section

open scoped BigOperators

namespace Cert.Mlp

open Idealize.ShloMosaic Idealize.ShloMosaic.ValueIdx

/-- An affine map of a row: output `c` is `∑ k, h k * W c k + b c`. -/
def affine {K C : Nat} (W : Fin C → Fin K → EReal) (b : Fin C → EReal) (h : Fin K → EReal) : Fin C → EReal :=
  fun c => (∑ k : Fin K, h k * W c k) + b c

/-- One hidden layer: the affine map, then the logistic function on each unit. -/
def sigLayer (W : Fin 3 → Fin 3 → EReal) (b : Fin 3 → EReal) (h : Fin 3 → EReal) : Fin 3 → EReal :=
  fun c => Ideal.logistic (affine W b h c)

/-- The five outputs of one input row. -/
def rowOut (Win : Fin 3 → Fin 8 → EReal) (bin : Fin 3 → EReal) (Wh : Fin 3 → Fin 3 → EReal) (bh : Fin 3 → EReal)
    (Wout : Fin 5 → Fin 3 → EReal) (bout : Fin 5 → EReal) (x : Fin 8 → EReal) : Fin 5 → EReal :=
  affine Wout bout ((sigLayer Wh bh)^[10] (affine Win bin x))

/-- A matrix as a function of its two coordinates. -/
abbrev mat {a b : Nat} (A : (⟨2, ![a, b]⟩ : Shape).Idx → EReal) : Fin a → Fin b → EReal := fun i j => A (ix2 i j)

/-- A vector as a function of its coordinate. -/
abbrev vec {a : Nat} (v : (⟨1, ![a]⟩ : Shape).Idx → EReal) : Fin a → EReal := fun i => v (ix1 i)

/-- A one-row matrix as a function of its column. -/
abbrev row0 {a : Nat} (v : (⟨2, ![1, a]⟩ : Shape).Idx → EReal) : Fin a → EReal := fun i => v (ix2 (0 : Fin 1) i)

/-- Row `r` of a matrix. -/
abbrev rowOf {n a : Nat} (A : (⟨2, ![n, a]⟩ : Shape).Idx → EReal) (r : Fin n) : Fin a → EReal := fun k => A (ix2 r k)

/-- Result column `j` over all `n` rows: at `(r, 0)` the output `j` of row `r`. -/
def column {n : Nat} (j : Fin 5) (x : (⟨2, ![n, 8]⟩ : Shape).Idx → EReal)
    (Win : (⟨2, ![3, 8]⟩ : Shape).Idx → EReal) (bin : Fin 3 → EReal)
    (Wh : (⟨2, ![3, 3]⟩ : Shape).Idx → EReal) (bh : Fin 3 → EReal)
    (Wout : (⟨2, ![5, 3]⟩ : Shape).Idx → EReal) (bout : Fin 5 → EReal) :
    (⟨2, ![n, 1]⟩ : Shape).Idx → EReal :=
  fun i => rowOut (mat Win) bin (mat Wh) bh (mat Wout) bout (rowOf x (i 0)) j

end Cert.Mlp

end
-- ==== Proof.MlpLayers.lean ====
/-
  The two spellings of the network's layers, read at an entry, for any number `n` of rows.
  The kernel writes an affine map as a matrix product with the transposed weights into a zero accumulator plus
  the one-row bias broadcast over the rows; the reference writes it as a `dot_general` with the transposed
  weights plus the bias vector broadcast first to one row and then over the rows. Read at `(p, c)`, both are
  `∑ k, h (p, k) * W (c, k) + b c`: the affine map of `MlpSpec` applied to row `p` (`affine_matmul_apply`,
  `affine_dot_apply`). The kernel's logistic operation and the reference's `1 / (1 + exp (-z))`, with the
  constant `1.0` broadcast from a scalar, are one function of each entry (`logistic_host_apply`).
-/
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import proofs.«132514_j42752104465077_1_alg».proof.Proof.LibPlainDot
import proofs.«132514_j42752104465077_1_alg».proof.Proof.MlpSpec

noncomputable section

open scoped BigOperators

namespace Cert.Mlp

open Idealize.ShloMosaic Idealize.ShloMosaic.ValueIdx Cert.Lib.PlainDot

variable {n K C : Nat}

/-- The kernel's affine map at `(p, c)`: the product of the rows `A` with the transposed weights, accumulated
    from zero, plus the bias row broadcast over the rows, is the affine map of row `p`. -/
theorem affine_matmul_apply (A : FVec Ideal ⟨2, ![n, K]⟩ .f32) (W : FVec Ideal ⟨2, ![C, K]⟩ .f32)
    (b : FVec Ideal ⟨2, ![1, C]⟩ .f32)
    (hT : (⟨2, ![C, K]⟩ : Shape).Transposes [1, 0] ⟨2, ![K, C]⟩)
    (hB : (⟨2, ![1, C]⟩ : Shape).Broadcasts ⟨2, ![n, C]⟩) (p : Fin n) (c : Fin C) :
    addf (matmul (DotDims.plain n K C) none A (transpose ⟨2, ![K, C]⟩ [1, 0] W hT)
        (constant ⟨2, ![n, C]⟩ .f32 0x00000000#32)) (broadcastTo ⟨2, ![n, C]⟩ b hB) (ix2 p c)
      = affine (mat W) (row0 b) (rowOf A p) c := by
  show FloatOps.matmul (DotDims.plain n K C) none A (transpose ⟨2, ![K, C]⟩ [1, 0] W hT)
        (constant ⟨2, ![n, C]⟩ .f32 0x00000000#32) (ix2 p c) + broadcastTo ⟨2, ![n, C]⟩ b hB (ix2 p c) = _
  rw [matmul_plain_zero_apply, broadcastTo_1b_ab_apply]
  unfold affine
  refine congrArg (· + b (ix2 (0 : Fin 1) c)) (Finset.sum_congr rfl fun k _ => ?_)
  rw [transpose_ix2_apply]

/-- A bias vector broadcast to one row and then over `n` rows reads, at `(p, c)`, the vector at `c`. -/
theorem bias_rows_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![n, C]⟩ ![0, 1]) (p : Fin n) (c : Fin C) :
    broadcastInDim ⟨2, ![n, C]⟩ ![0, 1] h2 (broadcastInDim ⟨2, ![1, C]⟩ ![1] h1 b) (ix2 p c) = b (ix1 c) := by
  have hc := c.isLt
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if C = 1 then 0 else c.val
      split
      · omega
      · rfl
  · match a with
    | ⟨0, _⟩ =>
      show c.val = if C = 1 then 0 else c.val
      split
      · omega
      · rfl

/-- The reference's affine map at `(p, c)`: the `dot_general` of the rows `A` with the transposed weights plus
    the bias vector broadcast over the rows is the affine map of row `p`. -/
theorem affine_dot_apply (A : FVec Ideal ⟨2, ![n, K]⟩ .f32) (W : FVec Ideal ⟨2, ![C, K]⟩ .f32)
    (b : FVec Ideal ⟨1, ![C]⟩ .f32)
    (hT : (⟨2, ![C, K]⟩ : Shape).Transposes [1, 0] ⟨2, ![K, C]⟩)
    (h1 : (⟨1, ![C]⟩ : Shape).BroadcastsInDim ⟨2, ![1, C]⟩ ![1])
    (h2 : (⟨2, ![1, C]⟩ : Shape).BroadcastsInDim ⟨2, ![n, C]⟩ ![0, 1]) (p : Fin n) (c : Fin C) :
    addf (Host.dotGeneral (DotDims.plain n K C) none A (transpose ⟨2, ![K, C]⟩ [1, 0] W hT))
        (broadcastInDim ⟨2, ![n, C]⟩ ![0, 1] h2 (broadcastInDim ⟨2, ![1, C]⟩ ![1] h1 b)) (ix2 p c)
      = affine (mat W) (vec b) (rowOf A p) c := by
  show FloatOps.dotGeneral (DotDims.plain n K C) none .single A (transpose ⟨2, ![K, C]⟩ [1, 0] W hT) (ix2 p c)
      + broadcastInDim ⟨2, ![n, C]⟩ ![0, 1] h2 (broadcastInDim ⟨2, ![1, C]⟩ ![1] h1 b) (ix2 p c) = _
  rw [dotGeneral_plain_apply, bias_rows_apply]
  unfold affine
  refine congrArg (· + b (ix1 c)) (Finset.sum_congr rfl fun k _ => ?_)
  rw [transpose_ix2_apply]

/-- The pattern of `1.0` is the extended real one. -/
theorem one_f32 : Ideal.ofBits .f32 0x3F800000#32 = 1 := IdealRules.sign_bit.ideal_onePat .f32

/-- The reference's logistic, `1 / (1 + exp (-z))` with both ones broadcast from a scalar constant, is the
    logistic function of each entry. -/
theorem logistic_host_apply {s : Shape} (z : FVec Ideal s .f32)
    (hb : (⟨0, ![]⟩ : Shape).BroadcastsInDim s ![]) (i : s.Idx) :
    Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf z))) i
      = Ideal.logistic (z i) := by
  show Ideal.div (Ideal.ofBits .f32 0x3F800000#32) (Ideal.ofBits .f32 0x3F800000#32 + Ideal.exp (-(z i))) = _
  rw [one_f32]
  rfl

end Cert.Mlp

end
-- ==== Proof.KernelRows.lean ====
/-
  The kernel's body, read row by row.
  On a block of 65536 rows the body computes the input projection of the block, ten hidden layers and the output
  projection, each as an operation on whole blocks; the five stores keep the five columns of the last block.
  Every one of these operations acts on each row by itself, so entry `(p, j)` of the last block is output `j` of
  the network of `MlpSpec` applied to row `p` of the block of inputs (`block_entry`).
-/
import proofs.«132514_j42752104465077_1_alg».proof.Proof.Gen.KernelIdeal.Skeleton
import proofs.«132514_j42752104465077_1_alg».proof.Proof.MlpLayers

noncomputable section

namespace Cert.KernelIdeal.Rows

open Cert.KernelIdeal Cert.KernelIdeal.Gen Idealize.ShloMosaic Idealize.ShloMosaic.ValueIdx Cert.Mlp

/-- The input projection of a block: the rows times the transposed input weights plus the bias row. -/
def inProj (x : FVec Ideal S65536x8 .f32) (W : FVec Ideal S3x8 .f32) (b : FVec Ideal S1x3 .f32) :
    FVec Ideal S65536x3 .f32 :=
  addf (matmul dot_S65536x8_S8x3_S65536x3_1_0_0_1_n_n none x (transpose S8x3 [1, 0] W transposes_S3x8_p1_0_S8x3)
    (constant S65536x3 .f32 0x00000000#32)) (broadcastTo S65536x3 b broadcasts_S1x3_S65536x3)

/-- One hidden layer on a block. -/
def hidden (W : FVec Ideal S3x3 .f32) (b : FVec Ideal S1x3 .f32) (h : FVec Ideal S65536x3 .f32) :
    FVec Ideal S65536x3 .f32 :=
  logistic (addf (matmul dot_S65536x3_S3x3_S65536x3_1_0_0_1_n_n none h (transpose S3x3 [1, 0] W transposes_S3x3_p1_0_S3x3)
    (constant S65536x3 .f32 0x00000000#32)) (broadcastTo S65536x3 b broadcasts_S1x3_S65536x3))

/-- The output projection of a block. -/
def outProj (W : FVec Ideal S5x3 .f32) (b : FVec Ideal S1x5 .f32) (h : FVec Ideal S65536x3 .f32) :
    FVec Ideal S65536x5 .f32 :=
  addf (matmul dot_S65536x3_S3x5_S65536x5_1_0_0_1_n_n none h (transpose S3x5 [1, 0] W transposes_S5x3_p1_0_S3x5)
    (constant S65536x5 .f32 0x00000000#32)) (broadcastTo S65536x5 b broadcasts_S1x5_S65536x5)

/-- The first part of the body: the input projection, then six hidden layers. -/
theorem first_part (v0 : FVec Ideal S65536x8 .f32) (v1 : FVec Ideal S3x8 .f32) (v2 : FVec Ideal S1x3 .f32)
    (v8 : FVec Ideal S3x3 .f32) (v9 : FVec Ideal S1x3 .f32) :
    k0_pay2 (F := Ideal) v0 v1 v2 v8 v9
      = (hidden v8 (shapeCast S1x3 v9 shapeCasts_S1x3_S1x3))^[6]
          (inProj v0 v1 (shapeCast S1x3 v2 shapeCasts_S1x3_S1x3)) := rfl

/-- The second part of the body: four more hidden layers, then the output projection. -/
theorem second_part (W : FVec Ideal S3x3 .f32) (b : FVec Ideal S1x3 .f32) (h : FVec Ideal S65536x3 .f32)
    (W5 : FVec Ideal S5x3 .f32) (b5 : FVec Ideal S1x5 .f32) :
    k0_pay4 (F := Ideal) W b h (transpose S3x3 [1, 0] W transposes_S3x3_p1_0_S3x3) W5 b5
      = outProj W5 (shapeCast S1x5 b5 shapeCasts_S1x5_S1x5) ((hidden W b)^[4] h) := rfl

/-- Row `p` of the input projection is the affine map of row `p`. -/
theorem inProj_row (x : FVec Ideal S65536x8 .f32) (W : FVec Ideal S3x8 .f32) (b : FVec Ideal S1x3 .f32) (p : Fin 65536) :
    rowOf (inProj x W b) p = affine (mat W) (row0 b) (rowOf x p) :=
  funext fun c => affine_matmul_apply x W b transposes_S3x8_p1_0_S8x3 broadcasts_S1x3_S65536x3 p c

/-- Row `p` of a hidden layer's result is the hidden layer of row `p`. -/
theorem hidden_row (W : FVec Ideal S3x3 .f32) (b : FVec Ideal S1x3 .f32) (h : FVec Ideal S65536x3 .f32) (p : Fin 65536) :
    rowOf (hidden W b h) p = sigLayer (mat W) (row0 b) (rowOf h p) :=
  funext fun c => congrArg Ideal.logistic
    (affine_matmul_apply h W b transposes_S3x3_p1_0_S3x3 broadcasts_S1x3_S65536x3 p c)

/-- Row `p` of the output projection is the affine map of row `p`. -/
theorem outProj_row (W : FVec Ideal S5x3 .f32) (b : FVec Ideal S1x5 .f32) (h : FVec Ideal S65536x3 .f32) (p : Fin 65536) :
    rowOf (outProj W b h) p = affine (mat W) (row0 b) (rowOf h p) :=
  funext fun c => affine_matmul_apply h W b transposes_S5x3_p1_0_S3x5 broadcasts_S1x5_S65536x5 p c

/-- Row `p` after `k` hidden layers is `k` hidden layers of row `p`. -/
theorem hidden_iter_row (W : FVec Ideal S3x3 .f32) (b : FVec Ideal S1x3 .f32) (k : Nat)
    (h : FVec Ideal S65536x3 .f32) (p : Fin 65536) :
    rowOf ((hidden W b)^[k] h) p = (sigLayer (mat W) (row0 b))^[k] (rowOf h p) := by
  induction k generalizing h with
  | zero => rfl
  | succ k ih => rw [Function.iterate_succ_apply, Function.iterate_succ_apply, ih, hidden_row]

/-- Entry `(p, j)` of the block the stores slice is output `j` of the network at row `p` of the inputs. -/
theorem block_entry (P0 : FVec Ideal S3x3 .f32) (P1 : FVec Ideal S1x3 .f32) (P2 : FVec Ideal S65536x8 .f32)
    (P3 : FVec Ideal S3x8 .f32) (P4 : FVec Ideal S1x3 .f32) (P5 : FVec Ideal S5x3 .f32) (P6 : FVec Ideal S1x5 .f32)
    (p : Fin 65536) (j : Fin 5) :
    k0_pay4 (F := Ideal) P0 (shapeCast S1x3 P1 shapeCasts_S1x3_S1x3) (k0_pay2 P2 P3 P4 P0 P1)
        (transpose S3x3 [1, 0] P0 transposes_S3x3_p1_0_S3x3) P5 P6 (ix2 p j)
      = rowOut (mat P3) (row0 P4) (mat P0) (row0 P1) (mat P5) (row0 P6) (rowOf P2 p) j := by
  rw [second_part, first_part, ← Function.iterate_add_apply]
  show rowOf (outProj P5 (shapeCast S1x5 P6 shapeCasts_S1x5_S1x5) _) p j = _
  rw [outProj_row, hidden_iter_row, inProj_row, shapeCast_self, shapeCast_self, shapeCast_self]
  rfl

end Cert.KernelIdeal.Rows

end
-- ==== Proof.KernelWhole.lean ====
/-
  From blocks to whole arrays: what the five result arrays hold after the kernel's run.
  The grid has 64 points; point `t` reads rows `65536·t … 65536·t + 65535` of the input and the whole of every weight
  and bias array (the biases as the one-row arrays the host reshapes them to before the call), and writes back, into
  each of the five result columns, the rows with the same numbers. By the row-by-row reading of the body, what point
  `t` writes to row `65536·t + p` of result `j` is output `j` of the network at that row of the input. The 64 blocks
  tile the 4194304 rows, so after the run result `j` is, at every row, output `j` of the network at that row.
-/
import proofs.«132514_j42752104465077_1_alg».proof.Proof.Gen.KernelIdeal.Value
import proofs.«132514_j42752104465077_1_alg».proof.Proof.KernelRows
import Idealize.ShloMosaic.Lib.StableHlo.Run

noncomputable section

namespace Cert.KernelIdeal.Whole

open Cert.KernelIdeal Cert.KernelIdeal.Gen Cert.KernelIdeal.Value Cert.KernelIdeal.Rows
open Idealize.ShloMosaic Idealize.ShloMosaic.ValueIdx Cert.Mlp
open Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each window holds at a point -/

/-- The input's block index at point `t` is `(t, 0)`; every weight and bias window stays at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Each result's block index at point `t` is `(t, 0)`. -/
theorem out_idx_facts : ∀ t : Fin cfg0.N,
    win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The row of the whole array that row `p` of point `t`'s block is. -/
def rowAt (t : Fin cfg0.N) (p : Fin 65536) : Fin 4194304 :=
  ⟨t.val * 65536 + p.val, by
    have ht : t.val < 64 := lt_of_lt_of_eq t.isLt N_0
    have hp := p.isLt
    omega⟩

/-! ## The input windows' blocks, read off the arguments -/

/-- Row `p` of the input's block at point `t` is row `65536·t + p` of the input. -/
theorem x_row (c : Dev nD) (t : Fin cfg0.N) (p : Fin 65536) :
    rowOf (n := 65536) (a := 8) (iblk m c 0 t) p = rowOf (m ((c : Thread nD τ).loc main_arg0)) (rowAt t p) := by
  funext k
  show V m c main_arg0 (((cfg0.win 0).blk t).view.emb (ix2 p k)) = m ((c : Thread nD τ).loc main_arg0) (ix2 (rowAt t p) k)
  rw [V_main_arg0]
  refine congrArg _ (funext fun a => Fin.ext ?_)
  obtain ⟨e0, e1, -⟩ := idx_facts t
  match a with
  | ⟨0, _⟩ => show win0_0.index t (0 : Fin 2) * 65536 + 1 * p.val = t.val * 65536 + p.val; omega
  | ⟨1, _⟩ => show win0_0.index t (1 : Fin 2) * 8 + 1 * k.val = k.val; omega

/-- The input weights' block is the whole argument. -/
theorem w_in (c : Dev nD) (t : Fin cfg0.N) : iblk m c 1 t = m ((c : Thread nD τ).loc main_arg1) := by
  funext y
  show V m c main_arg1 (((cfg0.win 1).blk t).view.emb y) = m ((c : Thread nD τ).loc main_arg1) y
  rw [V_main_arg1]
  refine congrArg _ (funext fun a => Fin.ext ?_)
  obtain ⟨-, -, e0, e1, -⟩ := idx_facts t
  match a with
  | ⟨0, _⟩ => show win0_1.index t (0 : Fin 2) * 3 + 1 * (y 0).val = (y 0).val; omega
  | ⟨1, _⟩ => show win0_1.index t (1 : Fin 2) * 8 + 1 * (y 1).val = (y 1).val; omega

/-- The hidden weights' block is the whole argument. -/
theorem w_h (c : Dev nD) (t : Fin cfg0.N) : iblk m c 3 t = m ((c : Thread nD τ).loc main_arg3) := by
  funext y
  show V m c main_arg3 (((cfg0.win 3).blk t).view.emb y) = m ((c : Thread nD τ).loc main_arg3) y
  rw [V_main_arg3]
  refine congrArg _ (funext fun a => Fin.ext ?_)
  obtain ⟨-, -, -, -, -, -, e0, e1, -⟩ := idx_facts t
  match a with
  | ⟨0, _⟩ => show win0_3.index t (0 : Fin 2) * 3 + 1 * (y 0).val = (y 0).val; omega
  | ⟨1, _⟩ => show win0_3.index t (1 : Fin 2) * 3 + 1 * (y 1).val = (y 1).val; omega

/-- The output weights' block is the whole argument. -/
theorem w_out (c : Dev nD) (t : Fin cfg0.N) : iblk m c 5 t = m ((c : Thread nD τ).loc main_arg5) := by
  funext y
  show V m c main_arg5 (((cfg0.win 5).blk t).view.emb y) = m ((c : Thread nD τ).loc main_arg5) y
  rw [V_main_arg5]
  refine congrArg _ (funext fun a => Fin.ext ?_)
  obtain ⟨-, -, -, -, -, -, -, -, -, -, e0, e1, -⟩ := idx_facts t
  match a with
  | ⟨0, _⟩ => show win0_5.index t (0 : Fin 2) * 5 + 1 * (y 0).val = (y 0).val; omega
  | ⟨1, _⟩ => show win0_5.index t (1 : Fin 2) * 3 + 1 * (y 1).val = (y 1).val; omega

/-- The array the region finds under the input bias's window is the bias vector as one row. -/
theorem V_b_in (c : Dev nD) :
    (V m c main_v0 : S1x3.Idx → EReal) = shapeCast S1x3 (m ((c : Thread nD τ).loc main_arg2)) shapeCasts_S3_S1x3 := by
  dsimp only [Gen.V, Gen.hostOps0]
  after_results
  rfl

/-- The same for the hidden bias. -/
theorem V_b_h (c : Dev nD) :
    (V m c main_v1 : S1x3.Idx → EReal) = shapeCast S1x3 (m ((c : Thread nD τ).loc main_arg4)) shapeCasts_S3_S1x3 := by
  dsimp only [Gen.V, Gen.hostOps0]
  after_results
  rfl

/-- The same for the output bias. -/
theorem V_b_out (c : Dev nD) :
    (V m c main_v2 : S1x5.Idx → EReal) = shapeCast S1x5 (m ((c : Thread nD τ).loc main_arg6)) shapeCasts_S5_S1x5 := by
  dsimp only [Gen.V, Gen.hostOps0]
  after_results
  rfl

/-- The one row of the input bias's block is the bias vector. -/
theorem b_in (c : Dev nD) (t : Fin cfg0.N) :
    row0 (a := 3) (iblk m c 2 t) = vec (m ((c : Thread nD τ).loc main_arg2)) := by
  funext i
  show (V m c main_v0 : S1x3.Idx → EReal) (((cfg0.win 2).blk t).view.emb (ix2 (0 : Fin 1) i))
    = m ((c : Thread nD τ).loc main_arg2) (ix1 i)
  have he : ((cfg0.win 2).blk t).view.emb (ix2 (0 : Fin 1) i) = ix2 (0 : Fin 1) i := by
    funext a
    apply Fin.ext
    obtain ⟨-, -, -, -, e0, e1, -⟩ := idx_facts t
    match a with
    | ⟨0, _⟩ => show win0_2.index t (0 : Fin 2) * 1 + 1 * 0 = 0; omega
    | ⟨1, _⟩ => show win0_2.index t (1 : Fin 2) * 3 + 1 * i.val = i.val; omega
  rw [he, V_b_in]
  exact shapeCast_a_1a_apply _ shapeCasts_S3_S1x3 (0 : Fin 1) i

/-- The one row of the hidden bias's block is the bias vector. -/
theorem b_h (c : Dev nD) (t : Fin cfg0.N) :
    row0 (a := 3) (iblk m c 4 t) = vec (m ((c : Thread nD τ).loc main_arg4)) := by
  funext i
  show (V m c main_v1 : S1x3.Idx → EReal) (((cfg0.win 4).blk t).view.emb (ix2 (0 : Fin 1) i))
    = m ((c : Thread nD τ).loc main_arg4) (ix1 i)
  have he : ((cfg0.win 4).blk t).view.emb (ix2 (0 : Fin 1) i) = ix2 (0 : Fin 1) i := by
    funext a
    apply Fin.ext
    obtain ⟨-, -, -, -, -, -, -, -, e0, e1, -⟩ := idx_facts t
    match a with
    | ⟨0, _⟩ => show win0_4.index t (0 : Fin 2) * 1 + 1 * 0 = 0; omega
    | ⟨1, _⟩ => show win0_4.index t (1 : Fin 2) * 3 + 1 * i.val = i.val; omega
  rw [he, V_b_h]
  exact shapeCast_a_1a_apply _ shapeCasts_S3_S1x3 (0 : Fin 1) i

/-- The one row of the output bias's block is the bias vector. -/
theorem b_out (c : Dev nD) (t : Fin cfg0.N) :
    row0 (a := 5) (iblk m c 6 t) = vec (m ((c : Thread nD τ).loc main_arg6)) := by
  funext i
  show (V m c main_v2 : S1x5.Idx → EReal) (((cfg0.win 6).blk t).view.emb (ix2 (0 : Fin 1) i))
    = m ((c : Thread nD τ).loc main_arg6) (ix1 i)
  have he : ((cfg0.win 6).blk t).view.emb (ix2 (0 : Fin 1) i) = ix2 (0 : Fin 1) i := by
    funext a
    apply Fin.ext
    obtain ⟨-, -, -, -, -, -, -, -, -, -, -, -, e0, e1⟩ := idx_facts t
    match a with
    | ⟨0, _⟩ => show win0_6.index t (0 : Fin 2) * 1 + 1 * 0 = 0; omega
    | ⟨1, _⟩ => show win0_6.index t (1 : Fin 2) * 5 + 1 * i.val = i.val; omega
  rw [he, V_b_out]
  exact shapeCast_a_1a_apply _ shapeCasts_S5_S1x5 (0 : Fin 1) i

/-! ## One point's contribution, and the whole arrays -/

/-- Result column `j` of the network over all the rows of the launch memory's arguments. -/
abbrev outCol (j : Fin 5) (c : Dev nD) : S4194304x1.Idx → EReal :=
  column j (m ((c : Thread nD τ).loc main_arg0)) (m ((c : Thread nD τ).loc main_arg1))
    (vec (m ((c : Thread nD τ).loc main_arg2))) (m ((c : Thread nD τ).loc main_arg3))
    (vec (m ((c : Thread nD τ).loc main_arg4))) (m ((c : Thread nD τ).loc main_arg5))
    (vec (m ((c : Thread nD τ).loc main_arg6)))

/-- The network's output `j` at row `p` of a point's blocks is its output `j` at row `r` of the whole arrays,
    once the blocks are known to be the whole weights, the bias vectors and, at row `p`, row `r` of the input. -/
theorem point_value (j : Fin 5)
    (B0 : FVec Ideal S65536x8 .f32) (B1 : FVec Ideal S3x8 .f32) (B2 : FVec Ideal S1x3 .f32) (B3 : FVec Ideal S3x3 .f32)
    (B4 : FVec Ideal S1x3 .f32) (B5 : FVec Ideal S5x3 .f32) (B6 : FVec Ideal S1x5 .f32)
    (X0 : FVec Ideal S4194304x8 .f32) (X1 : FVec Ideal S3x8 .f32) (X2 : FVec Ideal S3 .f32) (X3 : FVec Ideal S3x3 .f32)
    (X4 : FVec Ideal S3 .f32) (X5 : FVec Ideal S5x3 .f32) (X6 : FVec Ideal S5 .f32)
    (p : Fin 65536) (r : Fin 4194304)
    (h0 : rowOf B0 p = rowOf X0 r) (h1 : B1 = X1) (h2 : row0 B2 = vec X2) (h3 : B3 = X3) (h4 : row0 B4 = vec X4)
    (h5 : B5 = X5) (h6 : row0 B6 = vec X6) :
    rowOut (mat B1) (row0 B2) (mat B3) (row0 B4) (mat B5) (row0 B6) (rowOf B0 p) j
      = column j X0 X1 (vec X2) X3 (vec X4) X5 (vec X6) (ix2 r (0 : Fin 1)) := by
  subst h1 h3 h5
  rw [h0, h2, h4, h6]
  rfl

/-! ### Result 0 (output window 7) -/

/-- What the body leaves in this window's buffer, entry by entry: output 0 of the network at each row of the blocks. -/
theorem out7_entry (x0 : FVec Ideal S65536x8 .f32) (x1 : FVec Ideal S3x8 .f32) (x2 : FVec Ideal S1x3 .f32)
    (x3 : FVec Ideal S3x3 .f32) (x4 : FVec Ideal S1x3 .f32) (x5 : FVec Ideal S5x3 .f32) (x6 : FVec Ideal S1x5 .f32)
    (p : Fin 65536) (u : Fin 1) :
    out0_7 (F := Ideal) x0 x1 x2 x3 x4 x5 x6 (ix2 p u)
      = rowOut (mat x1) (row0 x2) (mat x3) (row0 x4) (mat x5) (row0 x6) (rowOf x0 p) 0 := by
  unfold out0_7
  simp only [View.ld_unit_zero (S := S65536x8) hz, View.ld_unit_zero (S := S3x8) hz, View.ld_unit_zero (S := S1x3) hz,
    View.ld_unit_zero (S := S3x3) hz, View.ld_unit_zero (S := S5x3) hz, View.ld_unit_zero (S := S1x5) hz]
  refine (canon7_eq (F := Ideal) x3 x4 x0 x1 x2 x5 x6 (ix2 p u)).trans ?_
  show k0_pay4 (F := Ideal) x3 (shapeCast S1x3 x4 shapeCasts_S1x3_S1x3) (k0_pay2 x0 x1 x2 x3 x4)
      (transpose S3x3 [1, 0] x3 transposes_S3x3_p1_0_S3x3) x5 x6 (ix7_0 (ix2 p u)) = _
  have e : ix7_0 (ix2 p u) = ix2 p (0 : Fin 5) := funext fun a => Fin.ext (by
    match a with
    | ⟨0, _⟩ => rfl
    | ⟨1, _⟩ => rfl)
  rw [e]
  exact block_entry x3 x4 x0 x1 x2 x5 x6 p 0

/-- Entry `(p, ·)` of this window's block at point `t` is row `65536·t + p` of the result array. -/
theorem emb7 (t : Fin cfg0.N) (p : Fin 65536) (u : Fin 1) :
    ((cfg0.win 7).blk t).view.emb (ix2 p u) = ix2 (rowAt t p) (0 : Fin 1) := by
  funext a
  apply Fin.ext
  obtain ⟨f70, f71, f80, f81, f90, f91, f100, f101, f110, f111⟩ := out_idx_facts t
  have hu : u.val < 1 := u.isLt
  match a with
  | ⟨0, _⟩ => show win0_7.index t (0 : Fin 2) * 65536 + 1 * p.val = t.val * 65536 + p.val; omega
  | ⟨1, _⟩ => show win0_7.index t (1 : Fin 2) * 1 + 1 * u.val = 0; omega

/-- What point `t` writes back to result 0 is block `t` of the network's column 0. -/
theorem flushed7_eq (c : Dev nD) (t : Fin cfg0.N) :
    (dats m 0 c).flushed 7 t = ((cfg0.win 7).blk t).view.read (Elt Ideal) (outCol m 0 c) := by
  rw [Value.flushed7]
  funext y
  obtain ⟨p, u, rfl⟩ : ∃ (p : Fin 65536) (u : Fin 1), y = ix2 p u := ⟨y 0, y 1, eq_ix2 y⟩
  show out0_7 (F := Ideal) (iblk m c 0 t) (iblk m c 1 t) (iblk m c 2 t) (iblk m c 3 t) (iblk m c 4 t) (iblk m c 5 t)
      (iblk m c 6 t) (ix2 p u) = outCol m 0 c (((cfg0.win 7).blk t).view.emb (ix2 p u))
  rw [emb7]
  refine (out7_entry (iblk m c 0 t) (iblk m c 1 t) (iblk m c 2 t) (iblk m c 3 t) (iblk m c 4 t) (iblk m c 5 t)
    (iblk m c 6 t) p u).trans ?_
  exact point_value 0 (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) p (rowAt t p)
    (x_row m c t p) (w_in m c t) (b_in m c t) (w_h m c t) (b_h m c t) (w_out m c t) (b_out m c t)

/-- An index of result 0 is in point `t`'s block iff each coordinate is in the block's range on its axis. -/
theorem mem_blk7 (t : Fin cfg0.N) (i : S4194304x1.Idx) :
    i ∈ ((cfg0.win 7).blk t).view.set ↔ ∀ a : Fin 2, win0_7.index t a * S65536x1.size a ≤ (i a).val
      ∧ (i a).val < win0_7.index t a * S65536x1.size a + S65536x1.size a := by
  show i ∈ ((View.whole main_v3_0).slice (win0_7.rect t)).set ↔ _
  rw [View.set_slice_whole, Rect.mem_set_unit]
  exact Iff.rfl

/-- Every row of result 0 is in the block of the point whose number is the row's number divided by 65536. -/
theorem cover7 (i : S4194304x1.Idx) :
    ∃ t : Fin cfg0.N, (cfg0.win 7).flush t = true ∧ i ∈ ((cfg0.win 7).blk t).view.set := by
  have hi0 : (i 0).val < 4194304 := (i 0).isLt
  have hi1 : (i 1).val < 1 := (i 1).isLt
  have hN : cfg0.N = 64 := N_0
  have hlt : (i 0).val / 65536 < cfg0.N := by rw [hN]; omega
  obtain ⟨f70, f71, f80, f81, f90, f91, f100, f101, f110, f111⟩ := out_idx_facts ⟨(i 0).val / 65536, hlt⟩
  have ht : (⟨(i 0).val / 65536, hlt⟩ : Fin cfg0.N).val = (i 0).val / 65536 := rfl
  refine ⟨⟨(i 0).val / 65536, hlt⟩, flush0_7 _, ?_⟩
  rw [mem_blk7]
  intro a
  match a with
  | ⟨0, _⟩ =>
    show win0_7.index ⟨(i 0).val / 65536, hlt⟩ (0 : Fin 2) * 65536 ≤ (i 0).val
      ∧ (i 0).val < win0_7.index ⟨(i 0).val / 65536, hlt⟩ (0 : Fin 2) * 65536 + 65536
    omega
  | ⟨1, _⟩ =>
    show win0_7.index ⟨(i 0).val / 65536, hlt⟩ (1 : Fin 2) * 1 ≤ (i 1).val
      ∧ (i 1).val < win0_7.index ⟨(i 0).val / 65536, hlt⟩ (1 : Fin 2) * 1 + 1
    omega

/-- After the run result 0 is the network's column 0. -/
theorem final7 (c : Dev nD) : (dats m 0 c).arrAt 7 cfg0.N = outCol m 0 c :=
  (dats m 0 c).arrAt_eq_of_cover 7 (outCol m 0 c) (fun t _ => flushed7_eq m c t) cover7

/-! ### Result 1 (output window 8) -/

/-- What the body leaves in this window's buffer, entry by entry: output 1 of the network at each row of the blocks. -/
theorem out8_entry (x0 : FVec Ideal S65536x8 .f32) (x1 : FVec Ideal S3x8 .f32) (x2 : FVec Ideal S1x3 .f32)
    (x3 : FVec Ideal S3x3 .f32) (x4 : FVec Ideal S1x3 .f32) (x5 : FVec Ideal S5x3 .f32) (x6 : FVec Ideal S1x5 .f32)
    (p : Fin 65536) (u : Fin 1) :
    out0_8 (F := Ideal) x0 x1 x2 x3 x4 x5 x6 (ix2 p u)
      = rowOut (mat x1) (row0 x2) (mat x3) (row0 x4) (mat x5) (row0 x6) (rowOf x0 p) 1 := by
  unfold out0_8
  simp only [View.ld_unit_zero (S := S65536x8) hz, View.ld_unit_zero (S := S3x8) hz, View.ld_unit_zero (S := S1x3) hz,
    View.ld_unit_zero (S := S3x3) hz, View.ld_unit_zero (S := S5x3) hz, View.ld_unit_zero (S := S1x5) hz]
  refine (canon8_eq (F := Ideal) x3 x4 x0 x1 x2 x5 x6 (ix2 p u)).trans ?_
  show k0_pay4 (F := Ideal) x3 (shapeCast S1x3 x4 shapeCasts_S1x3_S1x3) (k0_pay2 x0 x1 x2 x3 x4)
      (transpose S3x3 [1, 0] x3 transposes_S3x3_p1_0_S3x3) x5 x6 (ix8_0 (ix2 p u)) = _
  have e : ix8_0 (ix2 p u) = ix2 p (1 : Fin 5) := funext fun a => Fin.ext (by
    match a with
    | ⟨0, _⟩ => rfl
    | ⟨1, _⟩ => rfl)
  rw [e]
  exact block_entry x3 x4 x0 x1 x2 x5 x6 p 1

/-- Entry `(p, ·)` of this window's block at point `t` is row `65536·t + p` of the result array. -/
theorem emb8 (t : Fin cfg0.N) (p : Fin 65536) (u : Fin 1) :
    ((cfg0.win 8).blk t).view.emb (ix2 p u) = ix2 (rowAt t p) (0 : Fin 1) := by
  funext a
  apply Fin.ext
  obtain ⟨f70, f71, f80, f81, f90, f91, f100, f101, f110, f111⟩ := out_idx_facts t
  have hu : u.val < 1 := u.isLt
  match a with
  | ⟨0, _⟩ => show win0_8.index t (0 : Fin 2) * 65536 + 1 * p.val = t.val * 65536 + p.val; omega
  | ⟨1, _⟩ => show win0_8.index t (1 : Fin 2) * 1 + 1 * u.val = 0; omega

/-- What point `t` writes back to result 1 is block `t` of the network's column 1. -/
theorem flushed8_eq (c : Dev nD) (t : Fin cfg0.N) :
    (dats m 0 c).flushed 8 t = ((cfg0.win 8).blk t).view.read (Elt Ideal) (outCol m 1 c) := by
  rw [Value.flushed8]
  funext y
  obtain ⟨p, u, rfl⟩ : ∃ (p : Fin 65536) (u : Fin 1), y = ix2 p u := ⟨y 0, y 1, eq_ix2 y⟩
  show out0_8 (F := Ideal) (iblk m c 0 t) (iblk m c 1 t) (iblk m c 2 t) (iblk m c 3 t) (iblk m c 4 t) (iblk m c 5 t)
      (iblk m c 6 t) (ix2 p u) = outCol m 1 c (((cfg0.win 8).blk t).view.emb (ix2 p u))
  rw [emb8]
  refine (out8_entry (iblk m c 0 t) (iblk m c 1 t) (iblk m c 2 t) (iblk m c 3 t) (iblk m c 4 t) (iblk m c 5 t)
    (iblk m c 6 t) p u).trans ?_
  exact point_value 1 (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) p (rowAt t p)
    (x_row m c t p) (w_in m c t) (b_in m c t) (w_h m c t) (b_h m c t) (w_out m c t) (b_out m c t)

/-- An index of result 1 is in point `t`'s block iff each coordinate is in the block's range on its axis. -/
theorem mem_blk8 (t : Fin cfg0.N) (i : S4194304x1.Idx) :
    i ∈ ((cfg0.win 8).blk t).view.set ↔ ∀ a : Fin 2, win0_8.index t a * S65536x1.size a ≤ (i a).val
      ∧ (i a).val < win0_8.index t a * S65536x1.size a + S65536x1.size a := by
  show i ∈ ((View.whole main_v3_1).slice (win0_8.rect t)).set ↔ _
  rw [View.set_slice_whole, Rect.mem_set_unit]
  exact Iff.rfl

/-- Every row of result 1 is in the block of the point whose number is the row's number divided by 65536. -/
theorem cover8 (i : S4194304x1.Idx) :
    ∃ t : Fin cfg0.N, (cfg0.win 8).flush t = true ∧ i ∈ ((cfg0.win 8).blk t).view.set := by
  have hi0 : (i 0).val < 4194304 := (i 0).isLt
  have hi1 : (i 1).val < 1 := (i 1).isLt
  have hN : cfg0.N = 64 := N_0
  have hlt : (i 0).val / 65536 < cfg0.N := by rw [hN]; omega
  obtain ⟨f70, f71, f80, f81, f90, f91, f100, f101, f110, f111⟩ := out_idx_facts ⟨(i 0).val / 65536, hlt⟩
  have ht : (⟨(i 0).val / 65536, hlt⟩ : Fin cfg0.N).val = (i 0).val / 65536 := rfl
  refine ⟨⟨(i 0).val / 65536, hlt⟩, flush0_8 _, ?_⟩
  rw [mem_blk8]
  intro a
  match a with
  | ⟨0, _⟩ =>
    show win0_8.index ⟨(i 0).val / 65536, hlt⟩ (0 : Fin 2) * 65536 ≤ (i 0).val
      ∧ (i 0).val < win0_8.index ⟨(i 0).val / 65536, hlt⟩ (0 : Fin 2) * 65536 + 65536
    omega
  | ⟨1, _⟩ =>
    show win0_8.index ⟨(i 0).val / 65536, hlt⟩ (1 : Fin 2) * 1 ≤ (i 1).val
      ∧ (i 1).val < win0_8.index ⟨(i 0).val / 65536, hlt⟩ (1 : Fin 2) * 1 + 1
    omega

/-- After the run result 1 is the network's column 1. -/
theorem final8 (c : Dev nD) : (dats m 0 c).arrAt 8 cfg0.N = outCol m 1 c :=
  (dats m 0 c).arrAt_eq_of_cover 8 (outCol m 1 c) (fun t _ => flushed8_eq m c t) cover8

/-! ### Result 2 (output window 9) -/

/-- What the body leaves in this window's buffer, entry by entry: output 2 of the network at each row of the blocks. -/
theorem out9_entry (x0 : FVec Ideal S65536x8 .f32) (x1 : FVec Ideal S3x8 .f32) (x2 : FVec Ideal S1x3 .f32)
    (x3 : FVec Ideal S3x3 .f32) (x4 : FVec Ideal S1x3 .f32) (x5 : FVec Ideal S5x3 .f32) (x6 : FVec Ideal S1x5 .f32)
    (p : Fin 65536) (u : Fin 1) :
    out0_9 (F := Ideal) x0 x1 x2 x3 x4 x5 x6 (ix2 p u)
      = rowOut (mat x1) (row0 x2) (mat x3) (row0 x4) (mat x5) (row0 x6) (rowOf x0 p) 2 := by
  unfold out0_9
  simp only [View.ld_unit_zero (S := S65536x8) hz, View.ld_unit_zero (S := S3x8) hz, View.ld_unit_zero (S := S1x3) hz,
    View.ld_unit_zero (S := S3x3) hz, View.ld_unit_zero (S := S5x3) hz, View.ld_unit_zero (S := S1x5) hz]
  refine (canon9_eq (F := Ideal) x3 x4 x0 x1 x2 x5 x6 (ix2 p u)).trans ?_
  show k0_pay4 (F := Ideal) x3 (shapeCast S1x3 x4 shapeCasts_S1x3_S1x3) (k0_pay2 x0 x1 x2 x3 x4)
      (transpose S3x3 [1, 0] x3 transposes_S3x3_p1_0_S3x3) x5 x6 (ix9_0 (ix2 p u)) = _
  have e : ix9_0 (ix2 p u) = ix2 p (2 : Fin 5) := funext fun a => Fin.ext (by
    match a with
    | ⟨0, _⟩ => rfl
    | ⟨1, _⟩ => rfl)
  rw [e]
  exact block_entry x3 x4 x0 x1 x2 x5 x6 p 2

/-- Entry `(p, ·)` of this window's block at point `t` is row `65536·t + p` of the result array. -/
theorem emb9 (t : Fin cfg0.N) (p : Fin 65536) (u : Fin 1) :
    ((cfg0.win 9).blk t).view.emb (ix2 p u) = ix2 (rowAt t p) (0 : Fin 1) := by
  funext a
  apply Fin.ext
  obtain ⟨f70, f71, f80, f81, f90, f91, f100, f101, f110, f111⟩ := out_idx_facts t
  have hu : u.val < 1 := u.isLt
  match a with
  | ⟨0, _⟩ => show win0_9.index t (0 : Fin 2) * 65536 + 1 * p.val = t.val * 65536 + p.val; omega
  | ⟨1, _⟩ => show win0_9.index t (1 : Fin 2) * 1 + 1 * u.val = 0; omega

/-- What point `t` writes back to result 2 is block `t` of the network's column 2. -/
theorem flushed9_eq (c : Dev nD) (t : Fin cfg0.N) :
    (dats m 0 c).flushed 9 t = ((cfg0.win 9).blk t).view.read (Elt Ideal) (outCol m 2 c) := by
  rw [Value.flushed9]
  funext y
  obtain ⟨p, u, rfl⟩ : ∃ (p : Fin 65536) (u : Fin 1), y = ix2 p u := ⟨y 0, y 1, eq_ix2 y⟩
  show out0_9 (F := Ideal) (iblk m c 0 t) (iblk m c 1 t) (iblk m c 2 t) (iblk m c 3 t) (iblk m c 4 t) (iblk m c 5 t)
      (iblk m c 6 t) (ix2 p u) = outCol m 2 c (((cfg0.win 9).blk t).view.emb (ix2 p u))
  rw [emb9]
  refine (out9_entry (iblk m c 0 t) (iblk m c 1 t) (iblk m c 2 t) (iblk m c 3 t) (iblk m c 4 t) (iblk m c 5 t)
    (iblk m c 6 t) p u).trans ?_
  exact point_value 2 (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) p (rowAt t p)
    (x_row m c t p) (w_in m c t) (b_in m c t) (w_h m c t) (b_h m c t) (w_out m c t) (b_out m c t)

/-- An index of result 2 is in point `t`'s block iff each coordinate is in the block's range on its axis. -/
theorem mem_blk9 (t : Fin cfg0.N) (i : S4194304x1.Idx) :
    i ∈ ((cfg0.win 9).blk t).view.set ↔ ∀ a : Fin 2, win0_9.index t a * S65536x1.size a ≤ (i a).val
      ∧ (i a).val < win0_9.index t a * S65536x1.size a + S65536x1.size a := by
  show i ∈ ((View.whole main_v3_2).slice (win0_9.rect t)).set ↔ _
  rw [View.set_slice_whole, Rect.mem_set_unit]
  exact Iff.rfl

/-- Every row of result 2 is in the block of the point whose number is the row's number divided by 65536. -/
theorem cover9 (i : S4194304x1.Idx) :
    ∃ t : Fin cfg0.N, (cfg0.win 9).flush t = true ∧ i ∈ ((cfg0.win 9).blk t).view.set := by
  have hi0 : (i 0).val < 4194304 := (i 0).isLt
  have hi1 : (i 1).val < 1 := (i 1).isLt
  have hN : cfg0.N = 64 := N_0
  have hlt : (i 0).val / 65536 < cfg0.N := by rw [hN]; omega
  obtain ⟨f70, f71, f80, f81, f90, f91, f100, f101, f110, f111⟩ := out_idx_facts ⟨(i 0).val / 65536, hlt⟩
  have ht : (⟨(i 0).val / 65536, hlt⟩ : Fin cfg0.N).val = (i 0).val / 65536 := rfl
  refine ⟨⟨(i 0).val / 65536, hlt⟩, flush0_9 _, ?_⟩
  rw [mem_blk9]
  intro a
  match a with
  | ⟨0, _⟩ =>
    show win0_9.index ⟨(i 0).val / 65536, hlt⟩ (0 : Fin 2) * 65536 ≤ (i 0).val
      ∧ (i 0).val < win0_9.index ⟨(i 0).val / 65536, hlt⟩ (0 : Fin 2) * 65536 + 65536
    omega
  | ⟨1, _⟩ =>
    show win0_9.index ⟨(i 0).val / 65536, hlt⟩ (1 : Fin 2) * 1 ≤ (i 1).val
      ∧ (i 1).val < win0_9.index ⟨(i 0).val / 65536, hlt⟩ (1 : Fin 2) * 1 + 1
    omega

/-- After the run result 2 is the network's column 2. -/
theorem final9 (c : Dev nD) : (dats m 0 c).arrAt 9 cfg0.N = outCol m 2 c :=
  (dats m 0 c).arrAt_eq_of_cover 9 (outCol m 2 c) (fun t _ => flushed9_eq m c t) cover9

/-! ### Result 3 (output window 10) -/

/-- What the body leaves in this window's buffer, entry by entry: output 3 of the network at each row of the blocks. -/
theorem out10_entry (x0 : FVec Ideal S65536x8 .f32) (x1 : FVec Ideal S3x8 .f32) (x2 : FVec Ideal S1x3 .f32)
    (x3 : FVec Ideal S3x3 .f32) (x4 : FVec Ideal S1x3 .f32) (x5 : FVec Ideal S5x3 .f32) (x6 : FVec Ideal S1x5 .f32)
    (p : Fin 65536) (u : Fin 1) :
    out0_10 (F := Ideal) x0 x1 x2 x3 x4 x5 x6 (ix2 p u)
      = rowOut (mat x1) (row0 x2) (mat x3) (row0 x4) (mat x5) (row0 x6) (rowOf x0 p) 3 := by
  unfold out0_10
  simp only [View.ld_unit_zero (S := S65536x8) hz, View.ld_unit_zero (S := S3x8) hz, View.ld_unit_zero (S := S1x3) hz,
    View.ld_unit_zero (S := S3x3) hz, View.ld_unit_zero (S := S5x3) hz, View.ld_unit_zero (S := S1x5) hz]
  refine (canon10_eq (F := Ideal) x3 x4 x0 x1 x2 x5 x6 (ix2 p u)).trans ?_
  show k0_pay4 (F := Ideal) x3 (shapeCast S1x3 x4 shapeCasts_S1x3_S1x3) (k0_pay2 x0 x1 x2 x3 x4)
      (transpose S3x3 [1, 0] x3 transposes_S3x3_p1_0_S3x3) x5 x6 (ix10_0 (ix2 p u)) = _
  have e : ix10_0 (ix2 p u) = ix2 p (3 : Fin 5) := funext fun a => Fin.ext (by
    match a with
    | ⟨0, _⟩ => rfl
    | ⟨1, _⟩ => rfl)
  rw [e]
  exact block_entry x3 x4 x0 x1 x2 x5 x6 p 3

/-- Entry `(p, ·)` of this window's block at point `t` is row `65536·t + p` of the result array. -/
theorem emb10 (t : Fin cfg0.N) (p : Fin 65536) (u : Fin 1) :
    ((cfg0.win 10).blk t).view.emb (ix2 p u) = ix2 (rowAt t p) (0 : Fin 1) := by
  funext a
  apply Fin.ext
  obtain ⟨f70, f71, f80, f81, f90, f91, f100, f101, f110, f111⟩ := out_idx_facts t
  have hu : u.val < 1 := u.isLt
  match a with
  | ⟨0, _⟩ => show win0_10.index t (0 : Fin 2) * 65536 + 1 * p.val = t.val * 65536 + p.val; omega
  | ⟨1, _⟩ => show win0_10.index t (1 : Fin 2) * 1 + 1 * u.val = 0; omega

/-- What point `t` writes back to result 3 is block `t` of the network's column 3. -/
theorem flushed10_eq (c : Dev nD) (t : Fin cfg0.N) :
    (dats m 0 c).flushed 10 t = ((cfg0.win 10).blk t).view.read (Elt Ideal) (outCol m 3 c) := by
  rw [Value.flushed10]
  funext y
  obtain ⟨p, u, rfl⟩ : ∃ (p : Fin 65536) (u : Fin 1), y = ix2 p u := ⟨y 0, y 1, eq_ix2 y⟩
  show out0_10 (F := Ideal) (iblk m c 0 t) (iblk m c 1 t) (iblk m c 2 t) (iblk m c 3 t) (iblk m c 4 t) (iblk m c 5 t)
      (iblk m c 6 t) (ix2 p u) = outCol m 3 c (((cfg0.win 10).blk t).view.emb (ix2 p u))
  rw [emb10]
  refine (out10_entry (iblk m c 0 t) (iblk m c 1 t) (iblk m c 2 t) (iblk m c 3 t) (iblk m c 4 t) (iblk m c 5 t)
    (iblk m c 6 t) p u).trans ?_
  exact point_value 3 (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) p (rowAt t p)
    (x_row m c t p) (w_in m c t) (b_in m c t) (w_h m c t) (b_h m c t) (w_out m c t) (b_out m c t)

/-- An index of result 3 is in point `t`'s block iff each coordinate is in the block's range on its axis. -/
theorem mem_blk10 (t : Fin cfg0.N) (i : S4194304x1.Idx) :
    i ∈ ((cfg0.win 10).blk t).view.set ↔ ∀ a : Fin 2, win0_10.index t a * S65536x1.size a ≤ (i a).val
      ∧ (i a).val < win0_10.index t a * S65536x1.size a + S65536x1.size a := by
  show i ∈ ((View.whole main_v3_3).slice (win0_10.rect t)).set ↔ _
  rw [View.set_slice_whole, Rect.mem_set_unit]
  exact Iff.rfl

/-- Every row of result 3 is in the block of the point whose number is the row's number divided by 65536. -/
theorem cover10 (i : S4194304x1.Idx) :
    ∃ t : Fin cfg0.N, (cfg0.win 10).flush t = true ∧ i ∈ ((cfg0.win 10).blk t).view.set := by
  have hi0 : (i 0).val < 4194304 := (i 0).isLt
  have hi1 : (i 1).val < 1 := (i 1).isLt
  have hN : cfg0.N = 64 := N_0
  have hlt : (i 0).val / 65536 < cfg0.N := by rw [hN]; omega
  obtain ⟨f70, f71, f80, f81, f90, f91, f100, f101, f110, f111⟩ := out_idx_facts ⟨(i 0).val / 65536, hlt⟩
  have ht : (⟨(i 0).val / 65536, hlt⟩ : Fin cfg0.N).val = (i 0).val / 65536 := rfl
  refine ⟨⟨(i 0).val / 65536, hlt⟩, flush0_10 _, ?_⟩
  rw [mem_blk10]
  intro a
  match a with
  | ⟨0, _⟩ =>
    show win0_10.index ⟨(i 0).val / 65536, hlt⟩ (0 : Fin 2) * 65536 ≤ (i 0).val
      ∧ (i 0).val < win0_10.index ⟨(i 0).val / 65536, hlt⟩ (0 : Fin 2) * 65536 + 65536
    omega
  | ⟨1, _⟩ =>
    show win0_10.index ⟨(i 0).val / 65536, hlt⟩ (1 : Fin 2) * 1 ≤ (i 1).val
      ∧ (i 1).val < win0_10.index ⟨(i 0).val / 65536, hlt⟩ (1 : Fin 2) * 1 + 1
    omega

/-- After the run result 3 is the network's column 3. -/
theorem final10 (c : Dev nD) : (dats m 0 c).arrAt 10 cfg0.N = outCol m 3 c :=
  (dats m 0 c).arrAt_eq_of_cover 10 (outCol m 3 c) (fun t _ => flushed10_eq m c t) cover10

/-! ### Result 4 (output window 11) -/

/-- What the body leaves in this window's buffer, entry by entry: output 4 of the network at each row of the blocks. -/
theorem out11_entry (x0 : FVec Ideal S65536x8 .f32) (x1 : FVec Ideal S3x8 .f32) (x2 : FVec Ideal S1x3 .f32)
    (x3 : FVec Ideal S3x3 .f32) (x4 : FVec Ideal S1x3 .f32) (x5 : FVec Ideal S5x3 .f32) (x6 : FVec Ideal S1x5 .f32)
    (p : Fin 65536) (u : Fin 1) :
    out0_11 (F := Ideal) x0 x1 x2 x3 x4 x5 x6 (ix2 p u)
      = rowOut (mat x1) (row0 x2) (mat x3) (row0 x4) (mat x5) (row0 x6) (rowOf x0 p) 4 := by
  unfold out0_11
  simp only [View.ld_unit_zero (S := S65536x8) hz, View.ld_unit_zero (S := S3x8) hz, View.ld_unit_zero (S := S1x3) hz,
    View.ld_unit_zero (S := S3x3) hz, View.ld_unit_zero (S := S5x3) hz, View.ld_unit_zero (S := S1x5) hz]
  refine (canon11_eq (F := Ideal) x3 x4 x0 x1 x2 x5 x6 (ix2 p u)).trans ?_
  show k0_pay4 (F := Ideal) x3 (shapeCast S1x3 x4 shapeCasts_S1x3_S1x3) (k0_pay2 x0 x1 x2 x3 x4)
      (transpose S3x3 [1, 0] x3 transposes_S3x3_p1_0_S3x3) x5 x6 (ix11_0 (ix2 p u)) = _
  have e : ix11_0 (ix2 p u) = ix2 p (4 : Fin 5) := funext fun a => Fin.ext (by
    match a with
    | ⟨0, _⟩ => rfl
    | ⟨1, _⟩ => rfl)
  rw [e]
  exact block_entry x3 x4 x0 x1 x2 x5 x6 p 4

/-- Entry `(p, ·)` of this window's block at point `t` is row `65536·t + p` of the result array. -/
theorem emb11 (t : Fin cfg0.N) (p : Fin 65536) (u : Fin 1) :
    ((cfg0.win 11).blk t).view.emb (ix2 p u) = ix2 (rowAt t p) (0 : Fin 1) := by
  funext a
  apply Fin.ext
  obtain ⟨f70, f71, f80, f81, f90, f91, f100, f101, f110, f111⟩ := out_idx_facts t
  have hu : u.val < 1 := u.isLt
  match a with
  | ⟨0, _⟩ => show win0_11.index t (0 : Fin 2) * 65536 + 1 * p.val = t.val * 65536 + p.val; omega
  | ⟨1, _⟩ => show win0_11.index t (1 : Fin 2) * 1 + 1 * u.val = 0; omega

/-- What point `t` writes back to result 4 is block `t` of the network's column 4. -/
theorem flushed11_eq (c : Dev nD) (t : Fin cfg0.N) :
    (dats m 0 c).flushed 11 t = ((cfg0.win 11).blk t).view.read (Elt Ideal) (outCol m 4 c) := by
  rw [Value.flushed11]
  funext y
  obtain ⟨p, u, rfl⟩ : ∃ (p : Fin 65536) (u : Fin 1), y = ix2 p u := ⟨y 0, y 1, eq_ix2 y⟩
  show out0_11 (F := Ideal) (iblk m c 0 t) (iblk m c 1 t) (iblk m c 2 t) (iblk m c 3 t) (iblk m c 4 t) (iblk m c 5 t)
      (iblk m c 6 t) (ix2 p u) = outCol m 4 c (((cfg0.win 11).blk t).view.emb (ix2 p u))
  rw [emb11]
  refine (out11_entry (iblk m c 0 t) (iblk m c 1 t) (iblk m c 2 t) (iblk m c 3 t) (iblk m c 4 t) (iblk m c 5 t)
    (iblk m c 6 t) p u).trans ?_
  exact point_value 4 (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) p (rowAt t p)
    (x_row m c t p) (w_in m c t) (b_in m c t) (w_h m c t) (b_h m c t) (w_out m c t) (b_out m c t)

/-- An index of result 4 is in point `t`'s block iff each coordinate is in the block's range on its axis. -/
theorem mem_blk11 (t : Fin cfg0.N) (i : S4194304x1.Idx) :
    i ∈ ((cfg0.win 11).blk t).view.set ↔ ∀ a : Fin 2, win0_11.index t a * S65536x1.size a ≤ (i a).val
      ∧ (i a).val < win0_11.index t a * S65536x1.size a + S65536x1.size a := by
  show i ∈ ((View.whole main_v3_4).slice (win0_11.rect t)).set ↔ _
  rw [View.set_slice_whole, Rect.mem_set_unit]
  exact Iff.rfl

/-- Every row of result 4 is in the block of the point whose number is the row's number divided by 65536. -/
theorem cover11 (i : S4194304x1.Idx) :
    ∃ t : Fin cfg0.N, (cfg0.win 11).flush t = true ∧ i ∈ ((cfg0.win 11).blk t).view.set := by
  have hi0 : (i 0).val < 4194304 := (i 0).isLt
  have hi1 : (i 1).val < 1 := (i 1).isLt
  have hN : cfg0.N = 64 := N_0
  have hlt : (i 0).val / 65536 < cfg0.N := by rw [hN]; omega
  obtain ⟨f70, f71, f80, f81, f90, f91, f100, f101, f110, f111⟩ := out_idx_facts ⟨(i 0).val / 65536, hlt⟩
  have ht : (⟨(i 0).val / 65536, hlt⟩ : Fin cfg0.N).val = (i 0).val / 65536 := rfl
  refine ⟨⟨(i 0).val / 65536, hlt⟩, flush0_11 _, ?_⟩
  rw [mem_blk11]
  intro a
  match a with
  | ⟨0, _⟩ =>
    show win0_11.index ⟨(i 0).val / 65536, hlt⟩ (0 : Fin 2) * 65536 ≤ (i 0).val
      ∧ (i 0).val < win0_11.index ⟨(i 0).val / 65536, hlt⟩ (0 : Fin 2) * 65536 + 65536
    omega
  | ⟨1, _⟩ =>
    show win0_11.index ⟨(i 0).val / 65536, hlt⟩ (1 : Fin 2) * 1 ≤ (i 1).val
      ∧ (i 1).val < win0_11.index ⟨(i 0).val / 65536, hlt⟩ (1 : Fin 2) * 1 + 1
    omega

/-- After the run result 4 is the network's column 4. -/
theorem final11 (c : Dev nD) : (dats m 0 c).arrAt 11 cfg0.N = outCol m 4 c :=
  (dats m 0 c).arrAt_eq_of_cover 11 (outCol m 4 c) (fun t _ => flushed11_eq m c t) cover11

/-! ## The run, read -/

/-- The kernel's run with each result array at the network's column of the arguments, the arguments unchanged. -/
theorem run : θ_run defs (onTc (τ := τ) (main (F := Ideal))) ⟨m, fun _ => 0, ρ⟩ fun r => ∀ c : Dev nD,
      r.2.mem ((c : Thread nD τ).loc main_v3_0) = outCol m 0 c
      ∧ r.2.mem ((c : Thread nD τ).loc main_v3_1) = outCol m 1 c
      ∧ r.2.mem ((c : Thread nD τ).loc main_v3_2) = outCol m 2 c
      ∧ r.2.mem ((c : Thread nD τ).loc main_v3_3) = outCol m 3 c
      ∧ r.2.mem ((c : Thread nD τ).loc main_v3_4) = outCol m 4 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c),
      (h c).2.1.trans (final8 m c),
      (h c).2.2.1.trans (final9 m c),
      (h c).2.2.2.1.trans (final10 m c),
      (h c).2.2.2.2.1.trans (final11 m c),
      (h c).2.2.2.2.2⟩)
    (Value.run_blocks m ρ)

end Cert.KernelIdeal.Whole

end
-- ==== Proof.RefRows.lean ====
/-
  The reference, read row by row.
  The reference applies to the whole array of 4194304 rows the input projection, ten times the hidden layer (the
  logistic function written as `1 / (1 + exp (-z))`) and the output projection, and returns the five columns of the
  result. Each of these acts on every row by itself, so entry `(r, j)` before the slices is output `j` of the network
  of `MlpSpec` applied to row `r` of the input (`out_entry`), and result `j` is column `j` (`result0` … `result4`).
-/
import proofs.«132514_j42752104465077_1_alg».proof.Proof.Gen.ReferenceIdeal.Read
import proofs.«132514_j42752104465077_1_alg».proof.Proof.MlpLayers

noncomputable section

namespace Cert.ReferenceIdeal.Rows

open Cert.ReferenceIdeal Cert.ReferenceIdeal.Gen Cert.ReferenceIdeal.Read Idealize.ShloMosaic Idealize.ShloMosaic.ValueIdx Cert.Mlp

/-- The input projection of all the rows. -/
def inProj (x : FVec Ideal S4194304x8 .f32) (W : FVec Ideal S3x8 .f32) (b : FVec Ideal S3 .f32) :
    FVec Ideal S4194304x3 .f32 :=
  addf (Host.dotGeneral dot_S4194304x8_S8x3_S4194304x3_1_0_0_1_n_n none x (transpose S8x3 [1, 0] W transposes_S3x8_S8x3_1_0))
    (broadcastInDim S4194304x3 ![0, 1] bcast_S1x3_S4194304x3_0_1 (broadcastInDim S1x3 ![1] bcast_S3_S1x3_1 b))

/-- One hidden layer on all the rows, the logistic function spelt with a negation, an exponential, a sum and a quotient. -/
def hidden (W : FVec Ideal S3x3 .f32) (b : FVec Ideal S3 .f32) (h : FVec Ideal S4194304x3 .f32) :
    FVec Ideal S4194304x3 .f32 :=
  Host.divf (broadcastInDim S4194304x3 ![] bcast_S_S4194304x3 (constant S_ .f32 0x3F800000#32))
    (addf (broadcastInDim S4194304x3 ![] bcast_S_S4194304x3 (constant S_ .f32 0x3F800000#32))
      (Host.exp (Host.negf
        (addf (Host.dotGeneral dot_S4194304x3_S3x3_S4194304x3_1_0_0_1_n_n none h (transpose S3x3 [1, 0] W transposes_S3x3_S3x3_1_0))
          (broadcastInDim S4194304x3 ![0, 1] bcast_S1x3_S4194304x3_0_1 (broadcastInDim S1x3 ![1] bcast_S3_S1x3_1 b))))))

/-- The output projection of all the rows. -/
def outProj (W : FVec Ideal S5x3 .f32) (b : FVec Ideal S5 .f32) (h : FVec Ideal S4194304x3 .f32) :
    FVec Ideal S4194304x5 .f32 :=
  addf (Host.dotGeneral dot_S4194304x3_S3x5_S4194304x5_1_0_0_1_n_n none h (transpose S3x5 [1, 0] W transposes_S5x3_S3x5_1_0))
    (broadcastInDim S4194304x5 ![0, 1] bcast_S1x5_S4194304x5_0_1 (broadcastInDim S1x5 ![1] bcast_S5_S1x5_1 b))

section Stages

variable (x0 : FVec Ideal S4194304x8 .f32) (x1 : FVec Ideal S3x8 .f32) (x2 : FVec Ideal S3 .f32)
  (x3 : FVec Ideal S3x3 .f32) (x4 : FVec Ideal S3 .f32) (x5 : FVec Ideal S5x3 .f32) (x6 : FVec Ideal S5 .f32)

/-! The program's stages, grouped: the fourth is the input projection, every eleventh after it one more hidden
layer, and the last before the slices the output projection. -/

theorem stage4 : val_main_v4 (F := Ideal) x0 x1 x2 = inProj x0 x1 x2 := rfl
theorem stage15 : val_main_v15 (F := Ideal) x0 x1 x2 x3 x4 = hidden x3 x4 (val_main_v4 (F := Ideal) x0 x1 x2) := rfl
theorem stage26 : val_main_v26 (F := Ideal) x0 x1 x2 x3 x4 = hidden x3 x4 (val_main_v15 (F := Ideal) x0 x1 x2 x3 x4) := rfl
theorem stage37 : val_main_v37 (F := Ideal) x0 x1 x2 x3 x4 = hidden x3 x4 (val_main_v26 (F := Ideal) x0 x1 x2 x3 x4) := rfl
theorem stage48 : val_main_v48 (F := Ideal) x0 x1 x2 x3 x4 = hidden x3 x4 (val_main_v37 (F := Ideal) x0 x1 x2 x3 x4) := rfl
theorem stage59 : val_main_v59 (F := Ideal) x0 x1 x2 x3 x4 = hidden x3 x4 (val_main_v48 (F := Ideal) x0 x1 x2 x3 x4) := rfl
theorem stage70 : val_main_v70 (F := Ideal) x0 x1 x2 x3 x4 = hidden x3 x4 (val_main_v59 (F := Ideal) x0 x1 x2 x3 x4) := rfl
theorem stage81 : val_main_v81 (F := Ideal) x0 x1 x2 x3 x4 = hidden x3 x4 (val_main_v70 (F := Ideal) x0 x1 x2 x3 x4) := rfl
theorem stage92 : val_main_v92 (F := Ideal) x0 x1 x2 x3 x4 = hidden x3 x4 (val_main_v81 (F := Ideal) x0 x1 x2 x3 x4) := rfl
theorem stage103 : val_main_v103 (F := Ideal) x0 x1 x2 x3 x4 = hidden x3 x4 (val_main_v92 (F := Ideal) x0 x1 x2 x3 x4) := rfl
theorem stage114 : val_main_v114 (F := Ideal) x0 x1 x2 x3 x4 = hidden x3 x4 (val_main_v103 (F := Ideal) x0 x1 x2 x3 x4) := rfl
theorem stage119 :
    val_main_v119 (F := Ideal) x0 x1 x2 x3 x4 x5 x6 = outProj x5 x6 (val_main_v114 (F := Ideal) x0 x1 x2 x3 x4) := rfl

/-- The ten hidden layers, one after the other, from the input projection. -/
theorem hidden_all : val_main_v114 (F := Ideal) x0 x1 x2 x3 x4 = (hidden x3 x4)^[10] (inProj x0 x1 x2) := by
  rw [stage114, stage103, stage92, stage81, stage70, stage59, stage48, stage37, stage26, stage15, stage4]
  rfl

end Stages

/-- Row `r` of the input projection is the affine map of row `r`. -/
theorem inProj_row (x : FVec Ideal S4194304x8 .f32) (W : FVec Ideal S3x8 .f32) (b : FVec Ideal S3 .f32) (r : Fin 4194304) :
    rowOf (inProj x W b) r = affine (mat W) (vec b) (rowOf x r) :=
  funext fun c => affine_dot_apply x W b transposes_S3x8_S8x3_1_0 bcast_S3_S1x3_1 bcast_S1x3_S4194304x3_0_1 r c

/-- Row `r` of a hidden layer's result is the hidden layer of row `r`. -/
theorem hidden_row (W : FVec Ideal S3x3 .f32) (b : FVec Ideal S3 .f32) (h : FVec Ideal S4194304x3 .f32) (r : Fin 4194304) :
    rowOf (hidden W b h) r = sigLayer (mat W) (vec b) (rowOf h r) :=
  funext fun c => (logistic_host_apply _ bcast_S_S4194304x3 (ix2 r c)).trans (congrArg Ideal.logistic
    (affine_dot_apply h W b transposes_S3x3_S3x3_1_0 bcast_S3_S1x3_1 bcast_S1x3_S4194304x3_0_1 r c))

/-- Row `r` of the output projection is the affine map of row `r`. -/
theorem outProj_row (W : FVec Ideal S5x3 .f32) (b : FVec Ideal S5 .f32) (h : FVec Ideal S4194304x3 .f32) (r : Fin 4194304) :
    rowOf (outProj W b h) r = affine (mat W) (vec b) (rowOf h r) :=
  funext fun c => affine_dot_apply h W b transposes_S5x3_S3x5_1_0 bcast_S5_S1x5_1 bcast_S1x5_S4194304x5_0_1 r c

/-- Row `r` after `k` hidden layers is `k` hidden layers of row `r`. -/
theorem hidden_iter_row (W : FVec Ideal S3x3 .f32) (b : FVec Ideal S3 .f32) (k : Nat)
    (h : FVec Ideal S4194304x3 .f32) (r : Fin 4194304) :
    rowOf ((hidden W b)^[k] h) r = (sigLayer (mat W) (vec b))^[k] (rowOf h r) := by
  induction k generalizing h with
  | zero => rfl
  | succ k ih => rw [Function.iterate_succ_apply, Function.iterate_succ_apply, ih, hidden_row]

section Results

variable (x0 : FVec Ideal S4194304x8 .f32) (x1 : FVec Ideal S3x8 .f32) (x2 : FVec Ideal S3 .f32)
  (x3 : FVec Ideal S3x3 .f32) (x4 : FVec Ideal S3 .f32) (x5 : FVec Ideal S5x3 .f32) (x6 : FVec Ideal S5 .f32)

/-- Entry `(r, j)` before the slices is output `j` of the network at row `r` of the input. -/
theorem out_entry (r : Fin 4194304) (j : Fin 5) :
    val_main_v119 (F := Ideal) x0 x1 x2 x3 x4 x5 x6 (ix2 r j)
      = rowOut (mat x1) (vec x2) (mat x3) (vec x4) (mat x5) (vec x6) (rowOf x0 r) j := by
  rw [stage119, hidden_all]
  show rowOf (outProj x5 x6 _) r j = _
  rw [outProj_row, hidden_iter_row, inProj_row]
  rfl

/-- The slice that keeps column `j` of the last stage is column `j` of the network's outputs over all the rows. -/
theorem slice_column (j : Fin 5) (hs : S4194304x5.Slices ![0, j.val] S4194304x1) :
    extractStridedSlice S4194304x1 ![0, j.val] (val_main_v119 (F := Ideal) x0 x1 x2 x3 x4 x5 x6) hs
      = column j x0 x1 (vec x2) x3 (vec x4) x5 (vec x6) := by
  funext i
  obtain ⟨r, u, rfl⟩ : ∃ (r : Fin 4194304) (u : Fin 1), i = ix2 r u := ⟨i 0, i 1, eq_ix2 i⟩
  have hu : u.val < 1 := u.isLt
  refine (slice2_axis1_apply j.val _ hs r u j (by omega)).trans ?_
  exact out_entry x0 x1 x2 x3 x4 x5 x6 r j

theorem result0 : val_main_v120 (F := Ideal) x0 x1 x2 x3 x4 x5 x6 = column 0 x0 x1 (vec x2) x3 (vec x4) x5 (vec x6) :=
  slice_column x0 x1 x2 x3 x4 x5 x6 0 slices_S4194304x5_S4194304x1_0_0
theorem result1 : val_main_v121 (F := Ideal) x0 x1 x2 x3 x4 x5 x6 = column 1 x0 x1 (vec x2) x3 (vec x4) x5 (vec x6) :=
  slice_column x0 x1 x2 x3 x4 x5 x6 1 slices_S4194304x5_S4194304x1_0_1
theorem result2 : val_main_v122 (F := Ideal) x0 x1 x2 x3 x4 x5 x6 = column 2 x0 x1 (vec x2) x3 (vec x4) x5 (vec x6) :=
  slice_column x0 x1 x2 x3 x4 x5 x6 2 slices_S4194304x5_S4194304x1_0_2
theorem result3 : val_main_v123 (F := Ideal) x0 x1 x2 x3 x4 x5 x6 = column 3 x0 x1 (vec x2) x3 (vec x4) x5 (vec x6) :=
  slice_column x0 x1 x2 x3 x4 x5 x6 3 slices_S4194304x5_S4194304x1_0_3
theorem result4 : val_main_v124 (F := Ideal) x0 x1 x2 x3 x4 x5 x6 = column 4 x0 x1 (vec x2) x3 (vec x4) x5 (vec x6) :=
  slice_column x0 x1 x2 x3 x4 x5 x6 4 slices_S4194304x5_S4194304x1_0_4

end Results

end Cert.ReferenceIdeal.Rows

end
-- ==== Proof.lean ====
/-
  The kernel and the reference compute the same five columns.
  Both programs are the network  x ↦ W_out · σ¹⁰(W_in · x + b_in) + b_out,  where one step of σ¹⁰ is
  h ↦ logistic (W_h · h + b_h), applied to each of the 4194304 rows of the input by itself; result `j` holds
  component `j` of the output at every row.
  The kernel walks the rows in 64 blocks of 65536 and writes each product as a matrix product into a zero
  accumulator with the bias row broadcast over the block, and the logistic function as one operation; the reference
  works on the whole array with `dot_general`, biases broadcast from vectors, and the logistic function as
  `1 / (1 + exp (-z))`. On the extended reals every one of these pairs is the same function of a row, entry by entry:
  a sum of products over the shared axis plus the bias, and `1 / (1 + exp (-z))` is the logistic function by
  definition. So no law of arithmetic is used beyond `0 + s = s` for the zero accumulator, and the precondition
  (finite inputs) is not needed for the equality of the values.
  `Proof/MlpSpec` states the network on one row; `Proof/MlpLayers` reads the two spellings of a layer at an entry;
  `Proof/KernelRows` and `Proof/RefRows` read each program's chain of layers row by row; `Proof/KernelWhole` joins the
  kernel's 64 blocks into the whole result arrays. The three frames are the generated runs; the idealization changed
  no operation, so `preserves` has nothing to prove.
-/
import proofs.«132514_j42752104465077_1_alg».proof.Defs
import proofs.«132514_j42752104465077_1_alg».proof.Proof.Gen.Kernel
import proofs.«132514_j42752104465077_1_alg».proof.Proof.Gen.Kernel.Skeleton
import proofs.«132514_j42752104465077_1_alg».proof.Proof.Gen.Kernel.Launch
import proofs.«132514_j42752104465077_1_alg».proof.Proof.Gen.Kernel.Points
import proofs.«132514_j42752104465077_1_alg».proof.Proof.Gen.Kernel.Frame
import proofs.«132514_j42752104465077_1_alg».proof.Proof.Gen.KernelIdeal
import proofs.«132514_j42752104465077_1_alg».proof.Proof.Gen.KernelIdeal.Skeleton
import proofs.«132514_j42752104465077_1_alg».proof.Proof.Gen.KernelIdeal.Launch
import proofs.«132514_j42752104465077_1_alg».proof.Proof.Gen.KernelIdeal.Points
import proofs.«132514_j42752104465077_1_alg».proof.Proof.Gen.KernelIdeal.Frame
import proofs.«132514_j42752104465077_1_alg».proof.Proof.Gen.ReferenceIdeal
import proofs.«132514_j42752104465077_1_alg».proof.Proof.Gen.Pre_finite_inputs
import proofs.«132514_j42752104465077_1_alg».proof.Proof.Gen.KernelIdeal.Value
import proofs.«132514_j42752104465077_1_alg».proof.Proof.Gen.ReferenceIdeal.Run
import proofs.«132514_j42752104465077_1_alg».proof.Proof.Gen.ReferenceIdeal.Read
import proofs.«132514_j42752104465077_1_alg».proof.Proof.KernelWhole
import proofs.«132514_j42752104465077_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- Both runs end with result `j` at column `j` of the network over the rows of the (agreeing) arguments. -/
theorem algebraic : Cert.algebraic_KernelIdeal_ReferenceIdeal := by
  intro m ρ m' ρ' _ hagree
  refine ⟨fun c => Cert.KernelIdeal.Whole.outCol m 0 c, fun c => Cert.KernelIdeal.Whole.outCol m 1 c,
    fun c => Cert.KernelIdeal.Whole.outCol m 2 c, fun c => Cert.KernelIdeal.Whole.outCol m 3 c,
    fun c => Cert.KernelIdeal.Whole.outCol m 4 c, Cert.KernelIdeal.Whole.run m ρ, ?_⟩
  refine (θ_run Cert.ReferenceIdeal.defs _ _).mono (fun _ h c => ?_)
    (Cert.ReferenceIdeal.Value.run (F := Ideal) m' ρ')
  obtain ⟨h0, h1, h2, h3, h4, hk⟩ := h c
  obtain ⟨a0, a1, a2, a3, a4, a5, a6⟩ := hagree c
  refine ⟨h0.trans ?_, h1.trans ?_, h2.trans ?_, h3.trans ?_, h4.trans ?_, hk⟩
  · rw [Cert.ReferenceIdeal.Read.val_main_v120_eq, Cert.ReferenceIdeal.Rows.result0, a0, a1, a2, a3, a4, a5, a6]
  · rw [Cert.ReferenceIdeal.Read.val_main_v121_eq, Cert.ReferenceIdeal.Rows.result1, a0, a1, a2, a3, a4, a5, a6]
  · rw [Cert.ReferenceIdeal.Read.val_main_v122_eq, Cert.ReferenceIdeal.Rows.result2, a0, a1, a2, a3, a4, a5, a6]
  · rw [Cert.ReferenceIdeal.Read.val_main_v123_eq, Cert.ReferenceIdeal.Rows.result3, a0, a1, a2, a3, a4, a5, a6]
  · rw [Cert.ReferenceIdeal.Read.val_main_v124_eq, Cert.ReferenceIdeal.Rows.result4, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
